-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x32 : Shape := ⟨2, ![524288, 32]⟩
abbrev S128x32 : Shape := ⟨2, ![128, 32]⟩
abbrev S1x32 : Shape := ⟨2, ![1, 32]⟩
abbrev S32x256 : Shape := ⟨2, ![32, 256]⟩
abbrev S1x256 : Shape := ⟨2, ![1, 256]⟩
abbrev S_ : Shape := ⟨0, ![]⟩
abbrev S4x32x4x8 : Shape := ⟨4, ![4, 32, 4, 8]⟩
abbrev S32x8 : Shape := ⟨2, ![32, 8]⟩
abbrev S4x8 : Shape := ⟨2, ![4, 8]⟩
abbrev S1x8 : Shape := ⟨2, ![1, 8]⟩
abbrev S8 : Shape := ⟨1, ![8]⟩
abbrev S4x8x4x64 : Shape := ⟨4, ![4, 8, 4, 64]⟩
abbrev S8x64 : Shape := ⟨2, ![8, 64]⟩
abbrev S4x64 : Shape := ⟨2, ![4, 64]⟩
abbrev S1x64 : Shape := ⟨2, ![1, 64]⟩
abbrev S64 : Shape := ⟨1, ![64]⟩

class Facts : Prop where
  bcast_S_S524288x32 : S_.BroadcastsInDim S524288x32 (![] : Fin 0 → Fin S524288x32.rank)
  reducesTo_S524288x32_S_d0_1 : S524288x32.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S1x32 : S_.BroadcastsInDim S1x32 (![] : Fin 0 → Fin S1x32.rank)
  reducesTo_S1x32_S_d0_1 : S1x32.ReducesTo [0, 1] S_
  bcast_S_S32x256 : S_.BroadcastsInDim S32x256 (![] : Fin 0 → Fin S32x256.rank)
  reducesTo_S32x256_S_d0_1 : S32x256.ReducesTo [0, 1] S_
  bcast_S_S1x256 : S_.BroadcastsInDim S1x256 (![] : Fin 0 → Fin S1x256.rank)
  reducesTo_S1x256_S_d0_1 : S1x256.ReducesTo [0, 1] S_
  slices_S128x32_S32x8_0_0 : S128x32.Slices ![0, 0] S32x8
  bcast_S32x8_S4x32x4x8_1_3 : S32x8.BroadcastsInDim S4x32x4x8 (![1, 3] : Fin 2 → Fin S4x32x4x8.rank)
  shapeCasts_S128x32_S4x32x4x8 : S128x32.ShapeCasts S4x32x4x8
  bcast_S_S4x32x4x8 : S_.BroadcastsInDim S4x32x4x8 (![] : Fin 0 → Fin S4x32x4x8.rank)
  reducesTo_S4x32x4x8_S_d0_1_2_3 : S4x32x4x8.ReducesTo [0, 1, 2, 3] S_
  shapeCasts_S1x32_S4x8 : S1x32.ShapeCasts S4x8
  slices_S1x32_S1x8_0_0 : S1x32.Slices ![0, 0] S1x8
  shapeCasts_S1x8_S8 : S1x8.ShapeCasts S8
  bcast_S8_S4x8_1 : S8.BroadcastsInDim S4x8 (![1] : Fin 1 → Fin S4x8.rank)
  reducesTo_S4x8_S_d0_1 : S4x8.ReducesTo [0, 1] S_
  slices_S32x256_S8x64_0_0 : S32x256.Slices ![0, 0] S8x64
  bcast_S8x64_S4x8x4x64_1_3 : S8x64.BroadcastsInDim S4x8x4x64 (![1, 3] : Fin 2 → Fin S4x8x4x64.rank)
  shapeCasts_S32x256_S4x8x4x64 : S32x256.ShapeCasts S4x8x4x64
  bcast_S_S4x8x4x64 : S_.BroadcastsInDim S4x8x4x64 (![] : Fin 0 → Fin S4x8x4x64.rank)
  reducesTo_S4x8x4x64_S_d0_1_2_3 : S4x8x4x64.ReducesTo [0, 1, 2, 3] S_
  shapeCasts_S1x256_S4x64 : S1x256.ShapeCasts S4x64
  slices_S1x256_S1x64_0_0 : S1x256.Slices ![0, 0] S1x64
  shapeCasts_S1x64_S64 : S1x64.ShapeCasts S64
  bcast_S64_S4x64_1 : S64.BroadcastsInDim S4x64 (![1] : Fin 1 → Fin S4x64.rank)
  reducesTo_S4x64_S_d0_1 : S4x64.ReducesTo [0, 1] S_

variable [Facts]

def fn_part3 {F : FTy → Type} [FloatOps F] (main_v52 : IVec S_ 1) (main_v53 : FVec F S4x64 .f32) (main_v56 : FVec F S4x64 .f32) : IVec S_ 1 :=
  let main_v57 : IVec S4x64 1 := cmpf .oeq main_v53 main_v56
  let main_c_13 : IVec S_ 1 := constantI S_ 1 1#1
  let main_v58 : IVec S_ 1 := (fun x v => Host.reduce IntOp.andi x v reducesTo_S4x64_S_d0_1 h_S_) main_v57 main_c_13
  let main_v59 : IVec S_ 1 := andi main_v52 main_v58
  main_v59

def fn_part2 {F : FTy → Type} [FloatOps F] (main_arg2 : FVec F S1x32 .f32) (main_arg3 : FVec F S32x256 .f32) (main_arg4 : FVec F S1x256 .f32) (main_v34 : IVec S_ 1) (main_v35 : FVec F S4x8 .f32) : IVec S_ 1 :=
  let main_v36 : FVec F S1x8 .f32 := (extractStridedSlice S1x8 ![0, 0] · slices_S1x32_S1x8_0_0) main_arg2
  let main_v37 : FVec F S8 .f32 := shapeCast S8 main_v36 shapeCasts_S1x8_S8
  let main_v38 : FVec F S4x8 .f32 := broadcastInDim S4x8 ![1] bcast_S8_S4x8_1 main_v37
  let main_v39 : IVec S4x8 1 := cmpf .oeq main_v35 main_v38
  let main_c_10 : IVec S_ 1 := constantI S_ 1 1#1
  let main_v40 : IVec S_ 1 := (fun x v => Host.reduce IntOp.andi x v reducesTo_S4x8_S_d0_1 h_S_) main_v39 main_c_10
  let main_v41 : IVec S_ 1 := andi main_v34 main_v40
  let main_v42 : IVec S4x8x4x64 32 := iotaInDim S4x8x4x64 32 0
  let main_v43 : IVec S4x8x4x64 32 := iotaInDim S4x8x4x64 32 2
  let main_v44 : IVec S4x8x4x64 1 := cmpi .eq main_v42 main_v43
  let main_v45 : FVec F S8x64 .f32 := (extractStridedSlice S8x64 ![0, 0] · slices_S32x256_S8x64_0_0) main_arg3
  let main_v46 : FVec F S4x8x4x64 .f32 := broadcastInDim S4x8x4x64 ![1, 3] bcast_S8x64_S4x8x4x64_1_3 main_v45
  let main_v47 : FVec F S4x8x4x64 .f32 := shapeCast S4x8x4x64 main_arg3 shapeCasts_S32x256_S4x8x4x64
  let main_cst_11 : FVec F S_ .f32 := constant S_ .f32 0x00000000#32
  let main_v48 : FVec F S4x8x4x64 .f32 := broadcastInDim S4x8x4x64 ![] bcast_S_S4x8x4x64 main_cst_11
  let main_v49 : FVec F S4x8x4x64 .f32 := select main_v44 main_v46 main_v48
  let main_v50 : IVec S4x8x4x64 1 := cmpf .oeq main_v47 main_v49
  let main_c_12 : IVec S_ 1 := constantI S_ 1 1#1
  let main_v51 : IVec S_ 1 := (fun x v => Host.reduce IntOp.andi x v reducesTo_S4x8x4x64_S_d0_1_2_3 h_S_) main_v50 main_c_12
  let main_v52 : IVec S_ 1 := andi main_v41 main_v51
  let main_v53 : FVec F S4x64 .f32 := shapeCast S4x64 main_arg4 shapeCasts_S1x256_S4x64
  let main_v54 : FVec F S1x64 .f32 := (extractStridedSlice S1x64 ![0, 0] · slices_S1x256_S1x64_0_0) main_arg4
  let main_v55 : FVec F S64 .f32 := shapeCast S64 main_v54 shapeCasts_S1x64_S64
  let main_v56 : FVec F S4x64 .f32 := broadcastInDim S4x64 ![1] bcast_S64_S4x64_1 main_v55
  fn_part3 (F := F) main_v52 main_v53 main_v56

def fn_part1 {F : FTy → Type} [FloatOps F] (main_arg1 : FVec F S128x32 .f32) (main_arg2 : FVec F S1x32 .f32) (main_arg3 : FVec F S32x256 .f32) (main_arg4 : FVec F S1x256 .f32) (main_v13 : IVec S_ 1) (main_v16 : IVec S32x256 1) : IVec S_ 1 :=
  let main_c_5 : IVec S_ 1 := constantI S_ 1 1#1
  let main_v17 : IVec S_ 1 := (fun x v => Host.reduce IntOp.andi x v reducesTo_S32x256_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : IVec S4x32x4x8 32 := iotaInDim S4x32x4x8 32 0
  let main_v25 : IVec S4x32x4x8 32 := iotaInDim S4x32x4x8 32 2
  let main_v26 : IVec S4x32x4x8 1 := cmpi .eq main_v24 main_v25
  let main_v27 : FVec F S32x8 .f32 := (extractStridedSlice S32x8 ![0, 0] · slices_S128x32_S32x8_0_0) main_arg1
  let main_v28 : FVec F S4x32x4x8 .f32 := broadcastInDim S4x32x4x8 ![1, 3] bcast_S32x8_S4x32x4x8_1_3 main_v27
  let main_v29 : FVec F S4x32x4x8 .f32 := shapeCast S4x32x4x8 main_arg1 shapeCasts_S128x32_S4x32x4x8
  let main_cst_8 : FVec F S_ .f32 := constant S_ .f32 0x00000000#32
  let main_v30 : FVec F S4x32x4x8 .f32 := broadcastInDim S4x32x4x8 ![] bcast_S_S4x32x4x8 main_cst_8
  let main_v31 : FVec F S4x32x4x8 .f32 := select main_v26 main_v28 main_v30
  let main_v32 : IVec S4x32x4x8 1 := cmpf .oeq main_v29 main_v31
  let main_c_9 : IVec S_ 1 := constantI S_ 1 1#1
  let main_v33 : IVec S_ 1 := (fun x v => Host.reduce IntOp.andi x v reducesTo_S4x32x4x8_S_d0_1_2_3 h_S_) main_v32 main_c_9
  let main_v34 : IVec S_ 1 := andi main_v23 main_v33
  let main_v35 : FVec F S4x8 .f32 := shapeCast S4x8 main_arg2 shapeCasts_S1x32_S4x8
  fn_part2 (F := F) main_arg2 main_arg3 main_arg4 main_v34 main_v35

def fn {F : FTy → Type} [FloatOps F] (main_arg0 : FVec F S524288x32 .f32) (main_arg1 : FVec F S128x32 .f32) (main_arg2 : FVec F S1x32 .f32) (main_arg3 : FVec F S32x256 .f32) (main_arg4 : FVec F S1x256 .f32) : IVec S_ 1 :=
  let main_v0 : FVec F S524288x32 .f32 := Host.absf main_arg0
  let main_cst : FVec F S_ .f32 := constant S_ .f32 0x7F800000#32
  let main_v1 : FVec F S524288x32 .f32 := broadcastInDim S524288x32 ![] bcast_S_S524288x32 main_cst
  let main_v2 : IVec S524288x32 1 := cmpf .olt main_v0 main_v1
  let main_c : IVec S_ 1 := constantI S_ 1 1#1
  let main_v3 : IVec S_ 1 := (fun x v => Host.reduce IntOp.andi x v reducesTo_S524288x32_S_d0_1 h_S_) main_v2 main_c
  let main_v4 : FVec F S128x32 .f32 := Host.absf main_arg1
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S32x256 .f32 := Host.absf main_arg3
  let main_cst_4 : FVec F S_ .f32 := constant S_ .f32 0x7F800000#32
  let main_v15 : FVec F S32x256 .f32 := broadcastInDim S32x256 ![] bcast_S_S32x256 main_cst_4
  let main_v16 : IVec S32x256 1 := cmpf .olt main_v14 main_v15
  fn_part1 (F := F) main_arg1 main_arg2 main_arg3 main_arg4 main_v13 main_v16
-- ==== Kernel.lean ====
abbrev S524288x32 : Shape := ⟨2, ![524288, 32]⟩
abbrev S128x32 : Shape := ⟨2, ![128, 32]⟩
abbrev S1x32 : Shape := ⟨2, ![1, 32]⟩
abbrev S32x256 : Shape := ⟨2, ![32, 256]⟩
abbrev S1x256 : Shape := ⟨2, ![1, 256]⟩
abbrev S32x524288 : Shape := ⟨2, ![32, 524288]⟩
abbrev S32x8 : Shape := ⟨2, ![32, 8]⟩
abbrev S8x32 : Shape := ⟨2, ![8, 32]⟩
abbrev S1x8 : Shape := ⟨2, ![1, 8]⟩
abbrev S8x1 : Shape := ⟨2, ![8, 1]⟩
abbrev S8x64 : Shape := ⟨2, ![8, 64]⟩
abbrev S64x8 : Shape := ⟨2, ![64, 8]⟩
abbrev S1x64 : Shape := ⟨2, ![1, 64]⟩
abbrev S64x1 : Shape := ⟨2, ![64, 1]⟩
abbrev S64x524288 : Shape := ⟨2, ![64, 524288]⟩
abbrev S524288x64 : Shape := ⟨2, ![524288, 64]⟩
abbrev S32x65536 : Shape := ⟨2, ![32, 65536]⟩
abbrev S64x65536 : Shape := ⟨2, ![64, 65536]⟩
abbrev S8x65536 : Shape := ⟨2, ![8, 65536]⟩

abbrev nBuf : Space → Nat
  | .hbm => 16
  | .vmem => 8
  | .smem => 0
  | _ => 0

abbrev bufTy : (tb : Table) → Fin (tcTables nBuf tb) → BufTy
  | .hbm, ⟨0, _⟩ => ⟨S524288x32, .f32⟩
  | .hbm, ⟨1, _⟩ => ⟨S128x32, .f32⟩
  | .hbm, ⟨2, _⟩ => ⟨S1x32, .f32⟩
  | .hbm, ⟨3, _⟩ => ⟨S32x256, .f32⟩
  | .hbm, ⟨4, _⟩ => ⟨S1x256, .f32⟩
  | .hbm, ⟨5, _⟩ => ⟨S32x524288, .f32⟩
  | .hbm, ⟨6, _⟩ => ⟨S32x8, .f32⟩
  | .hbm, ⟨7, _⟩ => ⟨S8x32, .f32⟩
  | .hbm, ⟨8, _⟩ => ⟨S1x8, .f32⟩
  | .hbm, ⟨9, _⟩ => ⟨S8x1, .f32⟩
  | .hbm, ⟨10, _⟩ => ⟨S8x64, .f32⟩
  | .hbm, ⟨11, _⟩ => ⟨S64x8, .f32⟩
  | .hbm, ⟨12, _⟩ => ⟨S1x64, .f32⟩
  | .hbm, ⟨13, _⟩ => ⟨S64x1, .f32⟩
  | .hbm, ⟨14, _⟩ => ⟨S64x524288, .f32⟩
  | .hbm, ⟨15, _⟩ => ⟨S524288x64, .f32⟩
  | .local _ .vmem, ⟨0, _⟩ => ⟨S32x65536, .f32⟩
  | .local _ .vmem, ⟨1, _⟩ => ⟨S32x65536, .f32⟩
  | .local _ .vmem, ⟨2, _⟩ => ⟨S8x32, .f32⟩
  | .local _ .vmem, ⟨3, _⟩ => ⟨S8x1, .f32⟩
  | .local _ .vmem, ⟨4, _⟩ => ⟨S64x8, .f32⟩
  | .local _ .vmem, ⟨5, _⟩ => ⟨S64x1, .f32⟩
  | .local _ .vmem, ⟨6, _⟩ => ⟨S64x65536, .f32⟩
  | .local _ .vmem, ⟨7, _⟩ => ⟨S64x65536, .f32⟩
  | _, _ => ⟨S524288x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x65536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S524288x32_S32x524288_1_0 : S524288x32.Transposes [1, 0] S32x524288
  slices_S128x32_S32x8_0_0 : S128x32.Slices ![0, 0] S32x8
  transposes_S32x8_S8x32_1_0 : S32x8.Transposes [1, 0] S8x32
  slices_S1x32_S1x8_0_0 : S1x32.Slices ![0, 0] S1x8
  transposes_S1x8_S8x1_1_0 : S1x8.Transposes [1, 0] S8x1
  slices_S32x256_S8x64_0_0 : S32x256.Slices ![0, 0] S8x64
  transposes_S8x64_S64x8_1_0 : S8x64.Transposes [1, 0] S64x8
  slices_S1x256_S1x64_0_0 : S1x256.Slices ![0, 0] S1x64
  transposes_S1x64_S64x1_1_0 : S1x64.Transposes [1, 0] S64x1
  transposes_S64x524288_S524288x64_1_0 : S64x524288.Transposes [1, 0] S524288x64
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S32x65536_S32x65536_0_0 : ∀ a, (![0, 0] : Fin 2 → Nat) a + S32x65536.size a ≤ S32x65536.size a
  h_S32x65536 : 0 < S32x65536.numel
  shapeCasts_S32x65536_S32x65536 : S32x65536.ShapeCasts S32x65536
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x65536 : S8x1.Broadcasts S8x65536
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x65536 : S64x1.Broadcasts S64x65536
  inb_S64x65536_S64x65536_0_0 : ∀ a, (![0, 0] : Fin 2 → Nat) a + S64x65536.size a ≤ S64x65536.size a
  h_S64x65536 : 0 < S64x65536.numel
  dot_S8x32_S32x65536_S8x65536_1_0_0_1_n_n_wf : DotDims.WF S8x32 S32x65536 S8x65536 [1] [0] [0] [1] [] []
  dot_S64x8_S8x65536_S64x65536_1_0_0_1_n_n_wf : DotDims.WF S64x8 S8x65536 S64x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x65536.size a ≤ S32x524288.size a
  hwx0_0 : ∀ i : grid0.Coords, EltTy.bits .f32 = 32 ∨ (Rect.block (s := S32x524288) S32x65536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x32.size a ≤ S8x32.size a
  hwx0_1 : ∀ i : grid0.Coords, EltTy.bits .f32 = 32 ∨ (Rect.block (s := S8x32) S8x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S8x1.size a
  hwx0_2 : ∀ i : grid0.Coords, EltTy.bits .f32 = 32 ∨ (Rect.block (s := S8x1) S8x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x8.size a ≤ S64x8.size a
  hwx0_3 : ∀ i : grid0.Coords, EltTy.bits .f32 = 32 ∨ (Rect.block (s := S64x8) S64x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x65536.size a ≤ S64x524288.size a
  hwx0_5 : ∀ i : grid0.Coords, EltTy.bits .f32 = 32 ∨ (Rect.block (s := S64x524288) S64x65536.size (cc0_transform_5 i) (hinb0_5 i)).WholeWords (EltTy.packing .f32)

variable [Facts₀]

def dot_S8x32_S32x65536_S8x65536_1_0_0_1_n_n : DotDims S8x32 S32x65536 S8x65536 where
  lhsContracting := [1]
  rhsContracting := [0]
  lhsNonContracting := [0]
  rhsNonContracting := [1]
  lhsBatch := []
  rhsBatch := []
  wf := dot_S8x32_S32x65536_S8x65536_1_0_0_1_n_n_wf
def dot_S64x8_S8x65536_S64x65536_1_0_0_1_n_n : DotDims S64x8 S8x65536 S64x65536 where
  lhsContracting := [1]
  rhsContracting := [0]
  lhsNonContracting := [0]
  rhsNonContracting := [1]
  lhsBatch := []
  rhsBatch := []
  wf := dot_S64x8_S8x65536_S64x65536_1_0_0_1_n_n_wf

abbrev win0_0 : Pipeline.Window sig grid0 :=
  Pipeline.Window.ofSpec (Memref.whole main_call0_v0) S32x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S8x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S8x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6) S64x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v8) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v9) S64x65536.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S524288x32 : Shape := ⟨2, ![524288, 32]⟩
abbrev S128x32 : Shape := ⟨2, ![128, 32]⟩
abbrev S1x32 : Shape := ⟨2, ![1, 32]⟩
abbrev S32x256 : Shape := ⟨2, ![32, 256]⟩
abbrev S1x256 : Shape := ⟨2, ![1, 256]⟩
abbrev S16777216 : Shape := ⟨1, ![16777216]⟩
abbrev S131072x128 : Shape := ⟨2, ![131072, 128]⟩
abbrev S131072x256 : Shape := ⟨2, ![131072, 256]⟩
abbrev S524288x64 : Shape := ⟨2, ![524288, 64]⟩
abbrev S512x128 : Shape := ⟨2, ![512, 128]⟩
abbrev S512x256 : Shape := ⟨2, ![512, 256]⟩
abbrev S512x32 : Shape := ⟨2, ![512, 32]⟩

abbrev nBuf : Space → Nat
  | .hbm => 9
  | .vmem => 8
  | .smem => 0
  | _ => 0

abbrev bufTy : (tb : Table) → Fin (tcTables nBuf tb) → BufTy
  | .hbm, ⟨0, _⟩ => ⟨S524288x32, .f32⟩
  | .hbm, ⟨1, _⟩ => ⟨S128x32, .f32⟩
  | .hbm, ⟨2, _⟩ => ⟨S1x32, .f32⟩
  | .hbm, ⟨3, _⟩ => ⟨S32x256, .f32⟩
  | .hbm, ⟨4, _⟩ => ⟨S1x256, .f32⟩
  | .hbm, ⟨5, _⟩ => ⟨S16777216, .f32⟩
  | .hbm, ⟨6, _⟩ => ⟨S131072x128, .f32⟩
  | .hbm, ⟨7, _⟩ => ⟨S131072x256, .f32⟩
  | .hbm, ⟨8, _⟩ => ⟨S524288x64, .f32⟩
  | .local _ .vmem, ⟨0, _⟩ => ⟨S512x128, .f32⟩
  | .local _ .vmem, ⟨1, _⟩ => ⟨S512x128, .f32⟩
  | .local _ .vmem, ⟨2, _⟩ => ⟨S128x32, .f32⟩
  | .local _ .vmem, ⟨3, _⟩ => ⟨S1x32, .f32⟩
  | .local _ .vmem, ⟨4, _⟩ => ⟨S32x256, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | _, _ => ⟨S524288x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S524288x32_S16777216 : S524288x32.ShapeCasts S16777216
  shapeCasts_S16777216_S131072x128 : S16777216.ShapeCasts S131072x128
  shapeCasts_S131072x256_S524288x64 : S131072x256.ShapeCasts S524288x64
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  broadcasts_S1x32_S512x32 : S1x32.Broadcasts S512x32
  inb_S32x256_S32x256_0_0 : ∀ a, (![0, 0] : Fin 2 → Nat) a + S32x256.size a ≤ S32x256.size a
  h_S32x256 : 0 < S32x256.numel
  inb_S1x256_S1x256_0_0 : ∀ a, (![0, 0] : Fin 2 → Nat) a + S1x256.size a ≤ S1x256.size a
  h_S1x256 : 0 < S1x256.numel
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x128_S128x32_S512x32_1_0_0_1_n_n_wf : DotDims.WF S512x128 S128x32 S512x32 [1] [0] [0] [1] [] []
  dot_S512x32_S32x256_S512x256_1_0_0_1_n_n_wf : DotDims.WF S512x32 S32x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S131072x128.size a
  hwx0_0 : ∀ i : grid0.Coords, EltTy.bits .f32 = 32 ∨ (Rect.block (s := S131072x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x256.size a
  hwx0_3 : ∀ i : grid0.Coords, EltTy.bits .f32 = 32 ∨ (Rect.block (s := S32x256) S32x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S131072x256.size a
  hwx0_5 : ∀ i : grid0.Coords, EltTy.bits .f32 = 32 ∨ (Rect.block (s := S131072x256) S512x256.size (cc0_transform_5 i) (hinb0_5 i)).WholeWords (EltTy.packing .f32)

variable [Facts₀]

def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf
def dot_S512x32_S32x256_S512x256_1_0_0_1_n_n : DotDims S512x32 S32x256 S512x256 where
  lhsContracting := [1]
  rhsContracting := [0]
  lhsNonContracting := [0]
  rhsNonContracting := [1]
  lhsBatch := []
  rhsBatch := []
  wf := dot_S512x32_S32x256_S512x256_1_0_0_1_n_n_wf

abbrev win0_0 : Pipeline.Window sig grid0 :=
  Pipeline.Window.ofSpec (Memref.whole main_call0_v1) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Spec.lean ====
/-
  The two closed forms of the row-wise two-layer perceptron, and the structure under which they agree.

  The inputs are the rows `z[n, ·]` (32 features each) and four "wide" operands: `w1 [128, 32]`, `b1 [1, 32]`, `w2 [32, 256]`,
  `b2 [1, 256]`. Two programs compute an output `[524288, 64]` from them.

  * One reads only the LEADING blocks `w1[:32, :8]`, `b1[0, :8]`, `w2[:8, :64]`, `b2[0, :64]` and computes, row by row,
    `out[n, o] = Σ_h w2[h, o] · max(Σ_k w1[k, h] · z[n, k] + b1[0, h], 0) + b2[0, o]` (`leadOut`).
  * The other packs four consecutive rows into one row of 128 lanes, `zw[r, c] = z[4r + c / 32, c % 32]`, multiplies by the WHOLE
    wide operands, `hw[r, j] = max(Σ_c zw[r, c] · w1[c, j] + b1[0, j], 0)`, `ow[r, q] = Σ_j hw[r, j] · w2[j, q] + b2[0, q]`, and
    unpacks, `out[n, o] = ow[n / 4, 64 (n % 4) + o]` (`packedOut`).

  They are the same function exactly when the wide operands are the four-fold widening of their leading blocks — the weights
  block-diagonal with four equal diagonal blocks and zeros elsewhere, the biases four copies side by side (`Widened`): then in
  `Σ_c` only the 32 lanes of the row's own slot survive, and in `Σ_j` only the 8 hidden units of that slot. A product with an exact
  zero is zero on the extended reals whatever the other factor, and dropping zero terms of a finite sum needs no cancellation, so
  no finiteness is used. The equality itself is proved in the module that imports this one.
-/
import Idealize.ShloMosaic.PureOps.Ideal
import Idealize.ShloMosaic.Lib.ValueIdx

noncomputable section

open scoped BigOperators

namespace Cert.HyperMlp

open Idealize.ShloMosaic Idealize.ShloMosaic.ValueIdx

abbrev SZ : Shape := ⟨2, ![524288, 32]⟩
abbrev SW1 : Shape := ⟨2, ![128, 32]⟩
abbrev SB1 : Shape := ⟨2, ![1, 32]⟩
abbrev SW2 : Shape := ⟨2, ![32, 256]⟩
abbrev SB2 : Shape := ⟨2, ![1, 256]⟩
abbrev SO : Shape := ⟨2, ![524288, 64]⟩

variable (z : SZ.Idx → EReal) (w1 : SW1.Idx → EReal) (b1 : SB1.Idx → EReal) (w2 : SW2.Idx → EReal) (b2 : SB2.Idx → EReal)

/-! ## Through the leading blocks -/

/-- Hidden unit `h` of row `n`, by the leading `[32, 8]` block of `w1` and the leading 8 entries of `b1`. -/
def leadHidden (n : Fin 524288) (h : Fin 8) : EReal :=
  max ((∑ k : Fin 32, w1 (ix2 (⟨k.val, by omega⟩ : Fin 128) (⟨h.val, by omega⟩ : Fin 32)) * z (ix2 n k))
    + b1 (ix2 (0 : Fin 1) (⟨h.val, by omega⟩ : Fin 32))) 0

/-- Output `o` of row `n`, by the leading `[8, 64]` block of `w2` and the leading 64 entries of `b2`. -/
def leadAt (n : Fin 524288) (o : Fin 64) : EReal :=
  (∑ h : Fin 8, w2 (ix2 (⟨h.val, by omega⟩ : Fin 32) (⟨o.val, by omega⟩ : Fin 256)) * leadHidden z w1 b1 n h)
    + b2 (ix2 (0 : Fin 1) (⟨o.val, by omega⟩ : Fin 256))

/-- The whole output array of the program that reads the leading blocks. -/
def leadOut : SO.Idx → EReal := fun i => leadAt z w1 b1 w2 b2 (i 0) (i 1)

/-! ## Through packed rows and the whole wide operands -/

/-- Lane `j` of the hidden packed row `r`: the packed row `zw[r, c] = z[4r + c / 32, c % 32]` against column `j` of the whole `w1`. -/
def packedHidden (r : Fin 131072) (j : Fin 32) : EReal :=
  max ((∑ c : Fin 128, z (ix2 (⟨4 * r.val + c.val / 32, by omega⟩ : Fin 524288) (⟨c.val % 32, Nat.mod_lt _ (by norm_num)⟩ : Fin 32)) * w1 (ix2 c j))
    + b1 (ix2 (0 : Fin 1) j)) 0

/-- Lane `q` of the output packed row `r`. -/
def packedWide (r : Fin 131072) (q : Fin 256) : EReal :=
  (∑ j : Fin 32, packedHidden z w1 b1 r j * w2 (ix2 j q)) + b2 (ix2 (0 : Fin 1) q)

/-- Output `o` of row `n`: lane `64 (n % 4) + o` of packed row `n / 4`. -/
def packedAt (n : Fin 524288) (o : Fin 64) : EReal :=
  packedWide z w1 b1 w2 b2 (⟨n.val / 4, by omega⟩ : Fin 131072) (⟨64 * (n.val % 4) + o.val, by omega⟩ : Fin 256)

/-- The whole output array of the program that packs four rows into one. -/
def packedOut : SO.Idx → EReal := fun i => packedAt z w1 b1 w2 b2 (i 0) (i 1)

/-! ## The wide operands are the four-fold widening of their leading blocks -/

/-- `w1` and `w2` are block-diagonal with four equal diagonal blocks (the leading one) and zeros off the diagonal; `b1` and `b2`
    are four copies of their leading part. Block row of entry `c` of `w1` is `c / 32`, block column of `j` is `j / 8`; for `w2` they are
    `j / 8` and `q / 64`. -/
structure Widened : Prop where
  w1 : ∀ (c : Fin 128) (j : Fin 32), w1 (ix2 c j) =
    if c.val / 32 = j.val / 8 then w1 (ix2 (⟨c.val % 32, by omega⟩ : Fin 128) (⟨j.val % 8, by omega⟩ : Fin 32)) else 0
  b1 : ∀ j : Fin 32, b1 (ix2 (0 : Fin 1) j) = b1 (ix2 (0 : Fin 1) (⟨j.val % 8, by omega⟩ : Fin 32))
  w2 : ∀ (j : Fin 32) (q : Fin 256), w2 (ix2 j q) =
    if j.val / 8 = q.val / 64 then w2 (ix2 (⟨j.val % 8, by omega⟩ : Fin 32) (⟨q.val % 64, by omega⟩ : Fin 256)) else 0
  b2 : ∀ q : Fin 256, b2 (ix2 (0 : Fin 1) q) = b2 (ix2 (0 : Fin 1) (⟨q.val % 64, by omega⟩ : Fin 256))

end Cert.HyperMlp

end
-- ==== Proof.LibSumWindow.lean ====
/-
  A finite sum whose terms vanish outside a window.

  For `g : Fin n → M` in any additive commutative monoid, if `g i = 0` whenever `i` is outside `[lo, lo + d)` (with
  `lo + d ≤ n`), then `∑ i, g i = ∑ k : Fin d, g (lo + k)`: the window's entries are the image of `Fin d` under the injection
  `k ↦ lo + k`, and the terms off the image contribute nothing. No cancellation or finiteness is used, so it holds on the
  extended reals.
-/
import Mathlib.Algebra.BigOperators.Fin

open scoped BigOperators

namespace SumWindow

/-- The injection of a window of width `d` at offset `lo` into `Fin n`. -/
def shift (n d lo : Nat) (h : lo + d ≤ n) : Fin d ↪ Fin n :=
  ⟨fun k => ⟨lo + k.val, by have := k.isLt; omega⟩, fun a b hab => Fin.ext (by
    have := congrArg Fin.val hab
    simp only at this
    omega)⟩

theorem shift_val (n d lo : Nat) (h : lo + d ≤ n) (k : Fin d) : (shift n d lo h k).val = lo + k.val := rfl

/-- THE SUM OVER THE WINDOW: terms vanishing outside `[lo, lo + d)` leave the sum over the window. -/
theorem sum_window {M : Type*} [AddCommMonoid M] (n d lo : Nat) (h : lo + d ≤ n) (g : Fin n → M)
    (hz : ∀ i : Fin n, ¬(lo ≤ i.val ∧ i.val < lo + d) → g i = 0) :
    ∑ i, g i = ∑ k : Fin d, g (shift n d lo h k) := by
  rw [show (∑ k : Fin d, g (shift n d lo h k)) = ∑ i ∈ Finset.univ.map (shift n d lo h), g i from
    (Finset.sum_map _ (shift n d lo h) g).symm]
  refine (Finset.sum_subset (Finset.subset_univ _) fun i _ hi => hz i fun hb => hi ?_).symm
  rw [Finset.mem_map]
  exact ⟨⟨i.val - lo, by omega⟩, Finset.mem_univ _, Fin.ext (by rw [shift_val]; show lo + (i.val - lo) = i.val; omega)⟩

end SumWindow
-- ==== Proof.Bridge.lean ====
/-
  Under the four-fold widening the packed computation is the row-wise one.

  Write a row number as `n = 4r + p` (packed row `r`, slot `p`). In the packed hidden row, lane `8p + h` is
  `max(Σ_{c < 128} zw[r, c] · w1[c, 8p + h] + b1[0, 8p + h], 0)`. Column `8p + h` of a block-diagonal `w1` vanishes outside the rows
  `32p ≤ c < 32p + 32` of block `p`, where it is the leading block's `w1[c - 32p, h]`, and there `zw[r, c] = z[4r + p, c - 32p]`:
  the sum over 128 lanes is the sum over the 32 features of row `n`. The bias entry is the leading one by tiling. So lane `8p + h`
  of the packed hidden row is hidden unit `h` of row `n` (`packedHidden_slot`). One level up the same happens in
  `Σ_{j < 32} hw[r, j] · w2[j, 64p + o]`: only `8p ≤ j < 8p + 8` survive, with `w2[j - 8p, o]` (`packedAt_eq_leadAt`).

  Terms are dropped because one factor is the exact zero — `x · 0 = 0` for every extended real `x`, infinite ones included — and a
  finite sum is unchanged by leaving out zero terms; the surviving products differ only in the order of their factors. No
  finiteness of the inputs is needed.
-/
import proofs.«124208_g2000401518493392_pallasbulk_970_6_alg».proof.Proof.Spec
import proofs.«124208_g2000401518493392_pallasbulk_970_6_alg».proof.Proof.LibSumWindow

noncomputable section

open scoped BigOperators

namespace Cert.HyperMlp

open Idealize.ShloMosaic Idealize.ShloMosaic.ValueIdx

variable {z : SZ.Idx → EReal} {w1 : SW1.Idx → EReal} {b1 : SB1.Idx → EReal} {w2 : SW2.Idx → EReal} {b2 : SB2.Idx → EReal}

/-- Lane `8p + h` of packed hidden row `r` is hidden unit `h` of row `4r + p`. -/
theorem packedHidden_slot (W : Widened w1 b1 w2 b2) (r : Fin 131072) (p : Fin 4) (h : Fin 8)
    (j : Fin 32) (hj : j.val = 8 * p.val + h.val) (n : Fin 524288) (hn : n.val = 4 * r.val + p.val) :
    packedHidden z w1 b1 r j = leadHidden z w1 b1 n h := by
  unfold packedHidden leadHidden
  have hsum : (∑ c : Fin 128, z (ix2 (⟨4 * r.val + c.val / 32, by omega⟩ : Fin 524288)
        (⟨c.val % 32, Nat.mod_lt _ (by norm_num)⟩ : Fin 32)) * w1 (ix2 c j))
      = ∑ k : Fin 32, w1 (ix2 (⟨k.val, by omega⟩ : Fin 128) (⟨h.val, by omega⟩ : Fin 32)) * z (ix2 n k) := by
    rw [SumWindow.sum_window 128 32 (32 * p.val) (by omega) _ (fun c hc => by
      rw [W.w1 c j, if_neg (by omega), mul_zero])]
    refine Finset.sum_congr rfl fun k _ => ?_
    have hc : (SumWindow.shift 128 32 (32 * p.val) (by omega) k).val = 32 * p.val + k.val := rfl
    generalize SumWindow.shift 128 32 (32 * p.val) (by omega) k = c at hc
    rw [W.w1 c j, if_pos (by omega), mul_comm]
    have e1 : (⟨c.val % 32, by omega⟩ : Fin 128) = ⟨k.val, by omega⟩ := Fin.ext (by show c.val % 32 = k.val; omega)
    have e2 : (⟨j.val % 8, by omega⟩ : Fin 32) = ⟨h.val, by omega⟩ := Fin.ext (by show j.val % 8 = h.val; omega)
    have e3 : (⟨4 * r.val + c.val / 32, by omega⟩ : Fin 524288) = n := Fin.ext (by show 4 * r.val + c.val / 32 = n.val; omega)
    have e4 : (⟨c.val % 32, Nat.mod_lt _ (by norm_num)⟩ : Fin 32) = k := Fin.ext (by show c.val % 32 = k.val; omega)
    rw [e1, e2, e3, e4]
  have hb : b1 (ix2 (0 : Fin 1) j) = b1 (ix2 (0 : Fin 1) (⟨h.val, by omega⟩ : Fin 32)) := by
    rw [W.b1 j]
    have e : (⟨j.val % 8, by omega⟩ : Fin 32) = ⟨h.val, by omega⟩ := Fin.ext (by show j.val % 8 = h.val; omega)
    rw [e]
  rw [hsum, hb]

/-- Entry `(n, o)`: the packed computation's lane `64 (n % 4) + o` of row `n / 4` is the row-wise value. -/
theorem packedAt_eq_leadAt (W : Widened w1 b1 w2 b2) (n : Fin 524288) (o : Fin 64) :
    packedAt z w1 b1 w2 b2 n o = leadAt z w1 b1 w2 b2 n o := by
  unfold packedAt packedWide leadAt
  have hsum : (∑ j : Fin 32, packedHidden z w1 b1 (⟨n.val / 4, by omega⟩ : Fin 131072) j
        * w2 (ix2 j (⟨64 * (n.val % 4) + o.val, by omega⟩ : Fin 256)))
      = ∑ h : Fin 8, w2 (ix2 (⟨h.val, by omega⟩ : Fin 32) (⟨o.val, by omega⟩ : Fin 256)) * leadHidden z w1 b1 n h := by
    rw [SumWindow.sum_window 32 8 (8 * (n.val % 4)) (by omega) _ (fun j hj => by
      rw [W.w2 j _, if_neg (by show ¬ j.val / 8 = (64 * (n.val % 4) + o.val) / 64; omega), mul_zero])]
    refine Finset.sum_congr rfl fun h _ => ?_
    have hj : (SumWindow.shift 32 8 (8 * (n.val % 4)) (by omega) h).val = 8 * (n.val % 4) + h.val := rfl
    generalize SumWindow.shift 32 8 (8 * (n.val % 4)) (by omega) h = j at hj
    rw [packedHidden_slot W (⟨n.val / 4, by omega⟩ : Fin 131072) (⟨n.val % 4, Nat.mod_lt _ (by norm_num)⟩ : Fin 4) h j hj n
      (by show n.val = 4 * (n.val / 4) + n.val % 4; omega)]
    rw [W.w2 j _, if_pos (by show j.val / 8 = (64 * (n.val % 4) + o.val) / 64; omega), mul_comm]
    have e1 : (⟨j.val % 8, by omega⟩ : Fin 32) = ⟨h.val, by omega⟩ := Fin.ext (by show j.val % 8 = h.val; omega)
    have e2 : (⟨(64 * (n.val % 4) + o.val) % 64, by omega⟩ : Fin 256) = ⟨o.val, by omega⟩ :=
      Fin.ext (by show (64 * (n.val % 4) + o.val) % 64 = o.val; omega)
    rw [e1, e2]
  have hb : b2 (ix2 (0 : Fin 1) (⟨64 * (n.val % 4) + o.val, by omega⟩ : Fin 256))
      = b2 (ix2 (0 : Fin 1) (⟨o.val, by omega⟩ : Fin 256)) := by
    rw [W.b2 _]
    have e : (⟨(64 * (n.val % 4) + o.val) % 64, by omega⟩ : Fin 256) = ⟨o.val, by omega⟩ :=
      Fin.ext (by show (64 * (n.val % 4) + o.val) % 64 = o.val; omega)
    rw [e]
  rw [hsum, hb]

/-- The two programs' output arrays are one array when the wide operands are the widening of their leading blocks. -/
theorem packedOut_eq_leadOut (W : Widened w1 b1 w2 b2) : packedOut z w1 b1 w2 b2 = leadOut z w1 b1 w2 b2 :=
  funext fun i => packedAt_eq_leadAt W (i 0) (i 1)

end Cert.HyperMlp

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.KernelPayload.lean ====
/-
  The body's arithmetic at one entry of its output block.

  The body holds five blocks: the first-layer weights `a : [8, 32]`, the transposed rows `x : [32, 65536]`, the first-layer bias
  as a column `u : [8, 1]`, the second-layer weights `b : [64, 8]`, the second-layer bias as a column `v : [64, 1]`. It stores
  `b · max(a · x + u, 0) + v`, both products plain matrix products into a zero accumulator, each bias column broadcast along the
  65536 columns, the maximum taken entry by entry against the zero constant. Read at the entry `(o, q)` of the `[64, 65536]`
  result that is
      (Σ_{h < 8} b[o, h] · max((Σ_{k < 32} a[h, k] · x[k, q]) + u[h, 0], 0)) + v[o, 0].
  Nothing here needs finiteness: every step is the definition of an operation on extended reals read at an index.
-/
import proofs.«124208_g2000401518493392_pallasbulk_970_6_alg».proof.Proof.Gen.KernelIdeal.Skeleton
import proofs.«124208_g2000401518493392_pallasbulk_970_6_alg».proof.Proof.LibDotCols
import Idealize.ShloMosaic.Lib.ValueLayout

noncomputable section

open scoped BigOperators

namespace Cert.KernelIdeal.Body

open Cert.KernelIdeal Cert.KernelIdeal.Gen Idealize.ShloMosaic Idealize.ShloMosaic.ValueIdx

/-- A column `[a, 1]` broadcast along `b` columns reads, at `(p, q)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The first product's dimension numbers are the plain ones: contract the left operand's columns with the right operand's rows. -/
theorem dims_hidden : dot_S8x32_S32x65536_S8x65536_1_0_0_1_n_n = DotDims.plain 8 32 65536 := rfl

/-- So are the second product's. -/
theorem dims_out : dot_S64x8_S8x65536_S64x65536_1_0_0_1_n_n = DotDims.plain 64 8 65536 := rfl

/-- THE STORED VALUE AT AN ENTRY: entry `(o, q)` of what the body stores, from the five blocks it loaded. -/
theorem pay_apply (a : Vec Ideal S8x32 .f32) (x : Vec Ideal S32x65536 .f32) (u : Vec Ideal S8x1 .f32)
    (b : Vec Ideal S64x8 .f32) (v : Vec Ideal S64x1 .f32) (o : Fin 64) (q : Fin 65536) :
    k0_pay1 a x u b v (ix2 o q)
      = (∑ h : Fin 8, b (ix2 o h) * max ((∑ k : Fin 32, a (ix2 h k) * x (ix2 k q)) + u (ix2 h (0 : Fin 1))) 0)
        + v (ix2 o (0 : Fin 1)) := by
  unfold k0_pay1
  simp only [matmul, shapeCast_self]
  rw [addf_apply, broadcastTo_a1_ab_apply, Cert.Lib.DotCols.matmul_cols_apply _ dims_out]
  refine congrArg (· + v (ix2 o (0 : Fin 1))) (Finset.sum_congr rfl fun h _ => congrArg (b (ix2 o h) * ·) ?_)
  rw [maximumf_apply, addf_apply, broadcast_apply, broadcastTo_a1_ab_apply, Cert.Lib.DotCols.matmul_cols_apply _ dims_hidden]
  exact congrArg (max _) Ideal.ofBits_zero_f32

end Cert.KernelIdeal.Body

end
-- ==== Proof.KernelOperands.lean ====
/-
  The five arrays the pipelined region reads, entry by entry, in terms of the program's arguments.

  Before the region the host transposes the rows, `zt[k, n] = z[n, k]`, and of each wide operand takes the leading block and
  transposes it: `a[h, k] = w1[k, h]` (`k < 32`, `h < 8`), `u[h, 0] = b1[0, h]`, `b[o, h] = w2[h, o]` (`h < 8`, `o < 64`),
  `v[o, 0] = b2[0, o]`. Each fact is the host stretch's result for that buffer read at an index: a transpose swaps the two
  coordinates, a slice from offset zero keeps them.
-/
import proofs.«124208_g2000401518493392_pallasbulk_970_6_alg».proof.Proof.Gen.KernelIdeal.Frame
import Idealize.ShloMosaic.Lib.ValueLayout

noncomputable section

namespace Cert.KernelIdeal.Operands

open Cert.KernelIdeal Cert.KernelIdeal.Gen Idealize.ShloMosaic Idealize.ShloMosaic.TcCoe Idealize.ShloMosaic.ValueIdx
open Idealize.ShloMosaic.Tactic Idealize.SL.Sem

/-- The leading `[m0, m1]` block of a matrix reads, at `(i, j)`, the matrix at the same coordinates. -/
theorem slice2_lead_apply {α : Type} {n0 n1 m0 m1 : ℕ} (X : (⟨2, ![n0, n1]⟩ : Shape).Idx → α)
    (h : (⟨2, ![n0, n1]⟩ : Shape).Slices ![0, 0] ⟨2, ![m0, m1]⟩) (i : Fin m0) (j : Fin m1) (i' : Fin n0) (j' : Fin n1)
    (hi : i'.val = i.val) (hj : j'.val = j.val) :
    extractStridedSlice ⟨2, ![m0, m1]⟩ ![0, 0] X h (ix2 i j) = X (ix2 i' j') :=
  extractStridedSlice_apply _ _ _ _ _ (fun ax => by
    match ax with
    | ⟨0, _⟩ => exact hi.trans (Nat.zero_add _).symm
    | ⟨1, _⟩ => exact hj.trans (Nat.zero_add _).symm)

variable (m : (ℓ : Loc nD τ sig) → Buf (Elt Ideal) ℓ)

/-! ## The host stretch's results, as arrays -/

theorem rows_eq (c : Dev nD) : (V m c main_call0_v0 : S32x524288.Idx → EReal)
    = transpose S32x524288 [1, 0] (m ((c : Thread nD τ).loc main_arg0)) transposes_S524288x32_S32x524288_1_0 := by
  show StableHlo.after hostOps0 (fun b => m (c, b)) (Proc.devRef .tc main_call0_v0) = _
  after_results
  rfl

theorem w1_eq (c : Dev nD) : (V m c main_call0_v2 : S8x32.Idx → EReal)
    = transpose S8x32 [1, 0] (extractStridedSlice S32x8 ![0, 0] (m ((c : Thread nD τ).loc main_arg1)) slices_S128x32_S32x8_0_0)
        transposes_S32x8_S8x32_1_0 := by
  show StableHlo.after hostOps0 (fun b => m (c, b)) (Proc.devRef .tc main_call0_v2) = _
  after_results
  rfl

theorem b1_eq (c : Dev nD) : (V m c main_call0_v4 : S8x1.Idx → EReal)
    = transpose S8x1 [1, 0] (extractStridedSlice S1x8 ![0, 0] (m ((c : Thread nD τ).loc main_arg2)) slices_S1x32_S1x8_0_0)
        transposes_S1x8_S8x1_1_0 := by
  show StableHlo.after hostOps0 (fun b => m (c, b)) (Proc.devRef .tc main_call0_v4) = _
  after_results
  rfl

theorem w2_eq (c : Dev nD) : (V m c main_call0_v6 : S64x8.Idx → EReal)
    = transpose S64x8 [1, 0] (extractStridedSlice S8x64 ![0, 0] (m ((c : Thread nD τ).loc main_arg3)) slices_S32x256_S8x64_0_0)
        transposes_S8x64_S64x8_1_0 := by
  show StableHlo.after hostOps0 (fun b => m (c, b)) (Proc.devRef .tc main_call0_v6) = _
  after_results
  rfl

theorem b2_eq (c : Dev nD) : (V m c main_call0_v8 : S64x1.Idx → EReal)
    = transpose S64x1 [1, 0] (extractStridedSlice S1x64 ![0, 0] (m ((c : Thread nD τ).loc main_arg4)) slices_S1x256_S1x64_0_0)
        transposes_S1x64_S64x1_1_0 := by
  show StableHlo.after hostOps0 (fun b => m (c, b)) (Proc.devRef .tc main_call0_v8) = _
  after_results
  rfl

/-! ## The same, at an entry -/

/-- `zt[k, n] = z[n, k]`. -/
theorem rows_apply (c : Dev nD) (k : Fin 32) (n : Fin 524288) :
    (V m c main_call0_v0 : S32x524288.Idx → EReal) (ix2 k n)
      = (m ((c : Thread nD τ).loc main_arg0) : S524288x32.Idx → EReal) (ix2 n k) := by
  rw [rows_eq]
  exact transpose_ix2_apply _ _ k n

/-- `a[h, k] = w1[k, h]`, the coordinates read in the wide operand's own ranges. -/
theorem w1_apply (c : Dev nD) (h : Fin 8) (k : Fin 32) :
    (V m c main_call0_v2 : S8x32.Idx → EReal) (ix2 h k)
      = (m ((c : Thread nD τ).loc main_arg1) : S128x32.Idx → EReal) (ix2 (⟨k.val, by omega⟩ : Fin 128) (⟨h.val, by omega⟩ : Fin 32)) := by
  rw [w1_eq]
  exact (transpose_ix2_apply _ _ h k).trans (slice2_lead_apply _ _ k h _ _ rfl rfl)

/-- `u[h, 0] = b1[0, h]`. -/
theorem b1_apply (c : Dev nD) (h : Fin 8) :
    (V m c main_call0_v4 : S8x1.Idx → EReal) (ix2 h (0 : Fin 1))
      = (m ((c : Thread nD τ).loc main_arg2) : S1x32.Idx → EReal) (ix2 (0 : Fin 1) (⟨h.val, by omega⟩ : Fin 32)) := by
  rw [b1_eq]
  exact (transpose_ix2_apply _ _ h (0 : Fin 1)).trans (slice2_lead_apply _ _ (0 : Fin 1) h _ _ rfl rfl)

/-- `b[o, h] = w2[h, o]`. -/
theorem w2_apply (c : Dev nD) (o : Fin 64) (h : Fin 8) :
    (V m c main_call0_v6 : S64x8.Idx → EReal) (ix2 o h)
      = (m ((c : Thread nD τ).loc main_arg3) : S32x256.Idx → EReal) (ix2 (⟨h.val, by omega⟩ : Fin 32) (⟨o.val, by omega⟩ : Fin 256)) := by
  rw [w2_eq]
  exact (transpose_ix2_apply _ _ o h).trans (slice2_lead_apply _ _ h o _ _ rfl rfl)

/-- `v[o, 0] = b2[0, o]`. -/
theorem b2_apply (c : Dev nD) (o : Fin 64) :
    (V m c main_call0_v8 : S64x1.Idx → EReal) (ix2 o (0 : Fin 1))
      = (m ((c : Thread nD τ).loc main_arg4) : S1x256.Idx → EReal) (ix2 (0 : Fin 1) (⟨o.val, by omega⟩ : Fin 256)) := by
  rw [b2_eq]
  exact (transpose_ix2_apply _ _ o (0 : Fin 1)).trans (slice2_lead_apply _ _ (0 : Fin 1) o _ _ rfl rfl)

end Cert.KernelIdeal.Operands

end
-- ==== Proof.KernelBlocks.lean ====
/-
  From the blocks the grid points write to the whole array the region leaves.

  The region's grid has 8 points. Point `t` holds columns `65536 t … 65536 t + 65535` of the transposed rows `zt : [32, 524288]`
  and the four small operands whole, and writes columns `65536 t …` of the `[64, 524288]` result. So entry `(o, q)` of what
  point `t` writes is the stored value of the body at `(o, q)`, read with `x[k, q] = zt[k, 65536 t + q] = z[65536 t + q, k]`
  and the small operands' entries as the host prepared them: it is the output `o` of row `n = 65536 t + q` through the leading
  blocks. The eight column blocks tile the result — column `n` lies in block `n / 65536` —, so after the region the array is the
  transposed output `(o, n) ↦ out[n, o]` everywhere.
-/
import proofs.«124208_g2000401518493392_pallasbulk_970_6_alg».proof.Proof.KernelPayload
import proofs.«124208_g2000401518493392_pallasbulk_970_6_alg».proof.Proof.KernelOperands
import proofs.«124208_g2000401518493392_pallasbulk_970_6_alg».proof.Proof.Spec

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The region's result: the output through the leading blocks, transposed — entry `(o, n)` is output `o` of row `n`. -/
def leadT (c : Dev nD) : S64x524288.Idx → EReal := fun i =>
  Cert.HyperMlp.leadAt (m ((c : Thread nD τ).loc main_arg0)) (m ((c : Thread nD τ).loc main_arg1))
    (m ((c : Thread nD τ).loc main_arg2)) (m ((c : Thread nD τ).loc main_arg3)) (m ((c : Thread nD τ).loc main_arg4)) (i 1) (i 0)

/-! ## Where each window's block sits -/

theorem hz : (![0, 0] : Fin 2 → Nat) = fun _ => 0 := funext fun a => by fin_cases a <;> rfl

/-- The block index of every window at point `t`: the rows' and the result's column block is `t`, every other index is zero. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- Every column block of the result is some point's. -/
theorem idx_onto : ∀ q1 : Fin 8, ∃ t : Fin cfg0.N, win0_5.index t = ![0, q1.val] :=
  (by decide +kernel : ∀ q1 : Fin 8, ∃ t : Fin grid0.N, win0_5.index t = ![0, q1.val])

/-! ## Each input block's entries, in terms of the arguments -/

/-- Entry `(k, q)` of the rows' block at point `t` is `z[n, k]` for the row `n = 65536 t + q`. -/
theorem rows_blk (c : Dev nD) (t : Fin cfg0.N) (k : Fin 32) (q : Fin 65536) (n : Fin 524288) (hn : n.val = t.val * 65536 + q.val) :
    iblk m c 0 t (ix2 k q) = (m ((c : Thread nD τ).loc main_arg0) : S524288x32.Idx → EReal) (ix2 n k) := by
  refine Eq.trans ?_ (Operands.rows_apply m c k n)
  show V m c main_call0_v0 (((cfg0.win 0).blk t).view.emb (ix2 k q)) = V m c main_call0_v0 (ix2 k n)
  refine congrArg _ (funext fun a => Fin.ext ?_)
  obtain ⟨e0, e1, -⟩ := idx_facts t
  match a with
  | ⟨0, _⟩ => show win0_0.index t (0 : Fin 2) * 32 + 1 * k.val = k.val; omega
  | ⟨1, _⟩ => show win0_0.index t (1 : Fin 2) * 65536 + 1 * q.val = n.val; omega

/-- Entry `(h, k)` of the first-layer weights' block is `w1[k, h]`. -/
theorem w1_blk (c : Dev nD) (t : Fin cfg0.N) (h : Fin 8) (k : Fin 32) :
    iblk m c 1 t (ix2 h k)
      = (m ((c : Thread nD τ).loc main_arg1) : S128x32.Idx → EReal) (ix2 (⟨k.val, by omega⟩ : Fin 128) (⟨h.val, by omega⟩ : Fin 32)) := by
  refine Eq.trans ?_ (Operands.w1_apply m c h k)
  show V m c main_call0_v2 (((cfg0.win 1).blk t).view.emb (ix2 h k)) = V m c main_call0_v2 (ix2 h k)
  refine congrArg _ (funext fun a => Fin.ext ?_)
  obtain ⟨-, -, e0, e1, -⟩ := idx_facts t
  match a with
  | ⟨0, _⟩ => show win0_1.index t (0 : Fin 2) * 8 + 1 * h.val = h.val; omega
  | ⟨1, _⟩ => show win0_1.index t (1 : Fin 2) * 32 + 1 * k.val = k.val; omega

/-- Entry `(h, 0)` of the first-layer bias column is `b1[0, h]`. -/
theorem b1_blk (c : Dev nD) (t : Fin cfg0.N) (h : Fin 8) :
    iblk m c 2 t (ix2 h (0 : Fin 1))
      = (m ((c : Thread nD τ).loc main_arg2) : S1x32.Idx → EReal) (ix2 (0 : Fin 1) (⟨h.val, by omega⟩ : Fin 32)) := by
  refine Eq.trans ?_ (Operands.b1_apply m c h)
  show V m c main_call0_v4 (((cfg0.win 2).blk t).view.emb (ix2 h (0 : Fin 1))) = V m c main_call0_v4 (ix2 h (0 : Fin 1))
  refine congrArg _ (funext fun a => Fin.ext ?_)
  obtain ⟨-, -, -, -, e0, e1, -⟩ := idx_facts t
  match a with
  | ⟨0, _⟩ => show win0_2.index t (0 : Fin 2) * 8 + 1 * h.val = h.val; omega
  | ⟨1, _⟩ => show win0_2.index t (1 : Fin 2) * 1 + 1 * 0 = 0; omega

/-- Entry `(o, h)` of the second-layer weights' block is `w2[h, o]`. -/
theorem w2_blk (c : Dev nD) (t : Fin cfg0.N) (o : Fin 64) (h : Fin 8) :
    iblk m c 3 t (ix2 o h)
      = (m ((c : Thread nD τ).loc main_arg3) : S32x256.Idx → EReal) (ix2 (⟨h.val, by omega⟩ : Fin 32) (⟨o.val, by omega⟩ : Fin 256)) := by
  refine Eq.trans ?_ (Operands.w2_apply m c o h)
  show V m c main_call0_v6 (((cfg0.win 3).blk t).view.emb (ix2 o h)) = V m c main_call0_v6 (ix2 o h)
  refine congrArg _ (funext fun a => Fin.ext ?_)
  obtain ⟨-, -, -, -, -, -, e0, e1, -⟩ := idx_facts t
  match a with
  | ⟨0, _⟩ => show win0_3.index t (0 : Fin 2) * 64 + 1 * o.val = o.val; omega
  | ⟨1, _⟩ => show win0_3.index t (1 : Fin 2) * 8 + 1 * h.val = h.val; omega

/-- Entry `(o, 0)` of the second-layer bias column is `b2[0, o]`. -/
theorem b2_blk (c : Dev nD) (t : Fin cfg0.N) (o : Fin 64) :
    iblk m c 4 t (ix2 o (0 : Fin 1))
      = (m ((c : Thread nD τ).loc main_arg4) : S1x256.Idx → EReal) (ix2 (0 : Fin 1) (⟨o.val, by omega⟩ : Fin 256)) := by
  refine Eq.trans ?_ (Operands.b2_apply m c o)
  show V m c main_call0_v8 (((cfg0.win 4).blk t).view.emb (ix2 o (0 : Fin 1))) = V m c main_call0_v8 (ix2 o (0 : Fin 1))
  refine congrArg _ (funext fun a => Fin.ext ?_)
  obtain ⟨-, -, -, -, -, -, -, -, e0, e1, -⟩ := idx_facts t
  match a with
  | ⟨0, _⟩ => show win0_4.index t (0 : Fin 2) * 64 + 1 * o.val = o.val; omega
  | ⟨1, _⟩ => show win0_4.index t (1 : Fin 2) * 1 + 1 * 0 = 0; omega

/-! ## What a point writes -/

/-- Entry `(o, q)` of the body's stored value at point `t` is output `o` of row `n = 65536 t + q` through the leading blocks. -/
theorem point (c : Dev nD) (t : Fin cfg0.N) (o : Fin 64) (q : Fin 65536) (n : Fin 524288) (hn : n.val = t.val * 65536 + q.val) :
    k0_pay1 (iblk m c 1 t) (iblk m c 0 t) (iblk m c 2 t) (iblk m c 3 t) (iblk m c 4 t) (ix2 o q)
      = Cert.HyperMlp.leadAt (m ((c : Thread nD τ).loc main_arg0)) (m ((c : Thread nD τ).loc main_arg1))
          (m ((c : Thread nD τ).loc main_arg2)) (m ((c : Thread nD τ).loc main_arg3)) (m ((c : Thread nD τ).loc main_arg4)) n o := by
  refine (Body.pay_apply (iblk m c 1 t) (iblk m c 0 t) (iblk m c 2 t) (iblk m c 3 t) (iblk m c 4 t) o q).trans ?_
  unfold Cert.HyperMlp.leadAt Cert.HyperMlp.leadHidden
  rw [b2_blk m c t o]
  refine congrArg (fun s : EReal => s + (_ : EReal)) (Finset.sum_congr rfl fun h _ => ?_)
  rw [w2_blk m c t o h, b1_blk m c t h]
  refine congrArg (fun s : EReal => (_ : EReal) * max (s + (_ : EReal)) 0) (Finset.sum_congr rfl fun k _ => ?_)
  rw [w1_blk m c t h k, rows_blk m c t k q n hn]

/-- WHAT POINT `t` WRITES BACK is its column block of the transposed output. -/
theorem flushed_eq (c : Dev nD) (t : Fin cfg0.N) :
    (dats m 0 c).flushed 5 t = ((cfg0.win 5).blk t).view.read (Elt Ideal) (leadT m c) := by
  show (cfg0.win 5).cut (grid0.coords t) ((dats m 0 c).after 5 t) = _
  rw [after0_5]
  unfold out0_5
  rw [View.canon_unit_zero hz]
  simp only [View.ld_unit_zero (S := S8x32) hz, View.ld_unit_zero (S := S32x65536) hz, View.ld_unit_zero (S := S8x1) hz,
    View.ld_unit_zero (S := S64x8) hz, View.ld_unit_zero (S := S64x1) hz]
  funext j
  obtain ⟨o, q, rfl⟩ : ∃ (o : Fin 64) (q : Fin 65536), j = ix2 o q := ⟨j 0, j 1, eq_ix2 j⟩
  show k0_pay1 (iblk m c 1 t) (iblk m c 0 t) (iblk m c 2 t) (iblk m c 3 t) (iblk m c 4 t) (ix2 o q)
    = leadT m c (((cfg0.win 5).blk t).view.emb (ix2 o q))
  obtain ⟨-, -, -, -, -, -, -, -, -, -, e0, e1⟩ := idx_facts t
  have ho : (((cfg0.win 5).blk t).view.emb (ix2 o q)) 0 = o :=
    Fin.ext (by show win0_5.index t (0 : Fin 2) * 64 + 1 * o.val = o.val; omega)
  unfold leadT
  rw [ho]
  exact point m c t o q _ (by show win0_5.index t (1 : Fin 2) * 65536 + 1 * q.val = t.val * 65536 + q.val; omega)

/-! ## The blocks tile the result -/

/-- An index of the result is in point `t`'s block iff each coordinate is in the block's range on its axis. -/
theorem mem_blk (t : Fin cfg0.N) (i : S64x524288.Idx) :
    i ∈ ((cfg0.win 5).blk t).view.set ↔ ∀ a : Fin 2, win0_5.index t a * S64x65536.size a ≤ (i a).val
      ∧ (i a).val < win0_5.index t a * S64x65536.size a + S64x65536.size a := by
  show i ∈ ((View.whole main_call0_v9).slice (win0_5.rect t)).set ↔ _
  rw [View.set_slice_whole, Rect.mem_set_unit]
  exact Iff.rfl

/-- Column `n` of the result lies in the block of point `n / 65536`, and every point writes its block back. -/
theorem covered (i : S64x524288.Idx) :
    ∃ t : Fin cfg0.N, (cfg0.win 5).flush t = true ∧ i ∈ ((cfg0.win 5).blk t).view.set := by
  have hi0 : (i 0).val < 64 := (i 0).isLt
  have hi1 : (i 1).val < 524288 := (i 1).isLt
  obtain ⟨t, ht⟩ := idx_onto ⟨(i 1).val / 65536, by omega⟩
  have q0 : win0_5.index t (0 : Fin 2) = 0 := congrFun ht 0
  have q1 : win0_5.index t (1 : Fin 2) = (i 1).val / 65536 := congrFun ht 1
  refine ⟨t, flush0_5 t, ?_⟩
  rw [mem_blk]
  intro a
  match a with
  | ⟨0, _⟩ => show win0_5.index t (0 : Fin 2) * 64 ≤ (i 0).val ∧ (i 0).val < win0_5.index t (0 : Fin 2) * 64 + 64; omega
  | ⟨1, _⟩ => show win0_5.index t (1 : Fin 2) * 65536 ≤ (i 1).val ∧ (i 1).val < win0_5.index t (1 : Fin 2) * 65536 + 65536; omega

/-- THE ARRAY THE REGION LEAVES is the transposed output through the leading blocks. -/
theorem region_out (c : Dev nD) : (dats m 0 c).arrAt 5 cfg0.N = leadT m c :=
  (dats m 0 c).arrAt_eq_of_cover 5 (leadT m c) (fun t _ => flushed_eq m c t) covered

end Cert.KernelIdeal.Blocks

end
-- ==== Proof.KernelValue.lean ====
/-
  The value the idealized kernel program leaves in its result, and its run.

  After the region the host transposes the region's `[64, 524288]` array into the result `[524288, 64]`. The region leaves the
  transposed output through the leading blocks, `(o, n) ↦ out[n, o]`, so the result at `(n, o)` is `out[n, o]`: the closed form
  `leadOut` of the program's own five argument arrays. The run is the frame run re-posted: the result named by that closed form,
  the arguments unchanged (no host line before or after the region writes an argument array).
-/
import proofs.«124208_g2000401518493392_pallasbulk_970_6_alg».proof.Proof.KernelBlocks

set_option maxRecDepth 16384

noncomputable section

namespace Cert.KernelIdeal.ValueLeg

open Cert.KernelIdeal Cert.KernelIdeal.Gen Idealize.ShloMosaic Idealize.ShloMosaic.TcCoe Idealize.ShloMosaic.ValueIdx
open Idealize.ShloMosaic.Tactic Idealize.SL.Sem
open Idealize.ShloMosaic.Pipeline (Dat)

variable (m : (ℓ : Loc nD τ sig) → Buf (Elt Ideal) ℓ) (ρ : Dev nD → PrngReg)

/-- The transposed output, transposed back, is the output: entry `(n, o)` reads the region's array at `(o, n)`. -/
theorem transpose_leadT (c : Dev nD) :
    transpose S524288x64 [1, 0] (Blocks.leadT m c) transposes_S64x524288_S524288x64_1_0
      = Cert.HyperMlp.leadOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨n, o, rfl⟩ : ∃ (n : Fin 524288) (o : Fin 64), i = ix2 n o := ⟨i 0, i 1, eq_ix2 i⟩
  exact transpose_ix2_apply _ _ n o

/-- THE RESULT after the host line that follows the region. -/
theorem tail_out (c : Dev nD) :
    Pipeline.afterTail₀ cfgs (dats m) 0 (V0 m) [hostOps1] c main_v0
      = Cert.HyperMlp.leadOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Pipeline.afterTail₀
  show StableHlo.after hostOps1 _ (Proc.devRef .tc main_v0) = _
  after_results
  show transpose S524288x64 [1, 0]
      (Pipeline.withArrays spec0 c (V0 m c) (fun w => (dats m 0 c).arrAt w cfg0.N) (Proc.devRef .tc (Pipeline.arrRef spec0 5)))
      transposes_S64x524288_S524288x64_1_0 = _
  rw [Pipeline.withArrays_arr spec0 launch0.win.arr_inj c _ _ 5, Blocks.region_out m c]
  exact transpose_leadT m c

/-- THE RUN: every weakly fair execution of the idealized kernel program terminates without a fault, its result the output
    through the leading blocks of its own arguments, its arguments unchanged. -/
theorem run : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread nD τ).loc main_v0)
        = Cert.HyperMlp.leadOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v0 (Pipeline.mem_restRefs_of main_v0 (by decide) (by decide))).trans (tail_out m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.ValueLeg

end
-- ==== Proof.ReferenceReshapes.lean ====
/-
  The two regroupings of rows, read at one entry.

  Before the region the `[524288, 32]` input is flattened and regrouped as `[131072, 128]`: a regrouping keeps the row-major
  position, so packed row `r` holds the four input rows `4r … 4r + 3` side by side, lane `c` being entry `c % 32` of row
  `4r + c / 32` (position `128 r + c = 32 (4r + c / 32) + c % 32`). After the region the `[131072, 256]` result is regrouped as
  `[524288, 64]`: row `n` is the quarter `n % 4` of wide row `n / 4` (position `64 n + o = 256 (n / 4) + 64 (n % 4) + o`).
-/
import proofs.«124208_g2000401518493392_pallasbulk_970_6_alg».proof.ReferenceIdeal
import Idealize.ShloMosaic.Lib.Pipeline.Value
import Idealize.ShloMosaic.Lib.ValueIdx

noncomputable section

namespace Cert.ReferenceIdeal.ValueLeg

open Cert.ReferenceIdeal Idealize.ShloMosaic Idealize.ShloMosaic.ValueIdx

variable {α : Type}

/-- Flattening and regrouping into rows of 128: entry `(r, c)` is entry `(4r + c / 32, c % 32)` of the operand. -/
theorem packRows_apply (z : S524288x32.Idx → α) (h1 : S524288x32.ShapeCasts S16777216) (h2 : S16777216.ShapeCasts S131072x128)
    (r : Fin 131072) (c : Fin 128) :
    shapeCast S131072x128 (shapeCast S16777216 z h1) h2 (ix2 r c)
      = z (ix2 (⟨4 * r.val + c.val / 32, by omega⟩ : Fin 524288) (⟨c.val % 32, Nat.mod_lt _ (by norm_num)⟩ : Fin 32)) := by
  refine (shapeCast_apply _ h2 (ix2 r c) (ix1 (⟨128 * r.val + c.val, by omega⟩ : Fin 16777216)) ?_).trans ?_
  · rw [Shape.rowMajor_val_one, Shape.rowMajor_val_two]
    show 128 * r.val + c.val = r.val * 128 + c.val
    omega
  · refine shapeCast_apply z h1 _ _ ?_
    rw [Shape.rowMajor_val_two, Shape.rowMajor_val_one]
    show (4 * r.val + c.val / 32) * 32 + c.val % 32 = 128 * r.val + c.val
    omega

/-- Regrouping rows of 256 into rows of 64: entry `(n, o)` is entry `(n / 4, 64 (n % 4) + o)` of the operand. -/
theorem unpackRows_apply (y : S131072x256.Idx → α) (h : S131072x256.ShapeCasts S524288x64) (n : Fin 524288) (o : Fin 64) :
    shapeCast S524288x64 y h (ix2 n o)
      = y (ix2 (⟨n.val / 4, by omega⟩ : Fin 131072) (⟨64 * (n.val % 4) + o.val, by omega⟩ : Fin 256)) := by
  refine shapeCast_apply y h _ _ ?_
  rw [Shape.rowMajor_val_two, Shape.rowMajor_val_two]
  show n.val / 4 * 256 + (64 * (n.val % 4) + o.val) = n.val * 64 + o.val
  omega

end Cert.ReferenceIdeal.ValueLeg

end
-- ==== Proof.ReferenceWindows.lean ====
/-
  What each window's block holds at a grid point, in terms of the arrays as launched.

  The grid has 256 points. At point `t` window 0 holds rows `512 t … 512 t + 511` of the packed input, windows 1 to 4 hold the
  whole wide operands at every point (their block index is zero on both axes and the block is the array), and window 5 is rows
  `512 t … 512 t + 511` of the wide output. The packed input is the `[524288, 32]` argument regrouped into rows of 128 by the
  two host lines before the region; the wide operands are arguments, which no host line writes.
-/
import proofs.«124208_g2000401518493392_pallasbulk_970_6_alg».proof.Proof.Gen.ReferenceIdeal.Frame
import proofs.«124208_g2000401518493392_pallasbulk_970_6_alg».proof.Proof.ReferenceReshapes
import Idealize.ShloMosaic.Lib.Pipeline.Value

noncomputable section

namespace Cert.ReferenceIdeal.ValueLeg

open Cert.ReferenceIdeal Cert.ReferenceIdeal.Gen Idealize.ShloMosaic Idealize.ShloMosaic.TcCoe Idealize.ShloMosaic.ValueIdx
open Idealize.SL.Sem

variable (m : (ℓ : Loc nD τ sig) → Buf (Elt Ideal) ℓ)

/-- A grid point's number is below 256. -/
theorem point_lt (t : Fin cfg0.N) : t.val < 256 := lt_of_lt_of_eq t.isLt N_0

/-- The printed index maps over the grid: windows 0 and 5 move down one block of rows per point, windows 1 to 4 stay. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The packed input -/

/-- The region finds, as window 0's array, the first argument flattened and regrouped into rows of 128. -/
theorem packed_eq (c : Dev nD) :
    (V m c main_call0_v1 : S131072x128.Idx → EReal)
      = shapeCast S131072x128 (shapeCast S16777216 (m ((c : Thread nD τ).loc main_arg0) : S524288x32.Idx → EReal)
          Facts₀.shapeCasts_S524288x32_S16777216) Facts₀.shapeCasts_S16777216_S131072x128 := by
  show StableHlo.after hostOps0 (fun b => m (c, b)) (Proc.devRef .tc main_call0_v1) = _
  after_results
  rfl

/-- Entry `(r, k)` of the packed input is entry `(4r + k / 32, k % 32)` of the first argument. -/
theorem packed_apply (c : Dev nD) (r : Fin 131072) (k : Fin 128) :
    (V m c main_call0_v1 : S131072x128.Idx → EReal) (ix2 r k)
      = (m ((c : Thread nD τ).loc main_arg0) : S524288x32.Idx → EReal)
          (ix2 (⟨4 * r.val + k.val / 32, by omega⟩ : Fin 524288) (⟨k.val % 32, Nat.mod_lt _ (by norm_num)⟩ : Fin 32)) := by
  rw [packed_eq]
  exact packRows_apply _ _ _ r k

/-! ## The blocks -/

/-- Row `p` of window 0's block at point `t` is packed row `512 t + p`. -/
theorem rows_block (c : Dev nD) (t : Fin cfg0.N) (p : Fin 512) (k : Fin 128) :
    (iblk m c 0 t : Vec Ideal S512x128 .f32) (ix2 p k)
      = (V m c main_call0_v1 : S131072x128.Idx → EReal) (ix2 (⟨512 * t.val + p.val, by have := point_lt t; omega⟩ : Fin 131072) k) := by
  obtain ⟨e0, e1, -⟩ := index_facts t
  unfold iblk
  rw [View.read_apply]
  show V m c main_call0_v1 _ = V m c main_call0_v1 _
  refine congrArg (V m c main_call0_v1) (funext fun a => Fin.ext ?_)
  match a with
  | ⟨0, _⟩ => show win0_0.index t (0 : Fin 2) * 512 + 1 * p.val = 512 * t.val + p.val; rw [e0]; omega
  | ⟨1, _⟩ => show win0_0.index t (1 : Fin 2) * 128 + 1 * k.val = k.val; rw [e1]; omega

/-- Window 1's block is the whole second argument, at every point. -/
theorem w1_block (c : Dev nD) (t : Fin cfg0.N) :
    (iblk m c 1 t : Vec Ideal S128x32 .f32) = (m ((c : Thread nD τ).loc main_arg1) : S128x32.Idx → EReal) := by
  obtain ⟨-, -, e0, e1, -⟩ := index_facts t
  rw [← V_main_arg1 m c]
  unfold iblk
  funext y
  rw [View.read_apply]
  show V m c main_arg1 _ = V m c main_arg1 y
  refine congrArg (V m c main_arg1) (funext fun a => Fin.ext ?_)
  match a with
  | ⟨0, _⟩ => show win0_1.index t (0 : Fin 2) * 128 + 1 * (y 0).val = (y 0).val; rw [e0]; omega
  | ⟨1, _⟩ => show win0_1.index t (1 : Fin 2) * 32 + 1 * (y 1).val = (y 1).val; rw [e1]; omega

/-- Window 2's block is the whole third argument. -/
theorem b1_block (c : Dev nD) (t : Fin cfg0.N) :
    (iblk m c 2 t : Vec Ideal S1x32 .f32) = (m ((c : Thread nD τ).loc main_arg2) : S1x32.Idx → EReal) := by
  obtain ⟨-, -, -, -, e0, e1, -⟩ := index_facts t
  rw [← V_main_arg2 m c]
  unfold iblk
  funext y
  rw [View.read_apply]
  show V m c main_arg2 _ = V m c main_arg2 y
  refine congrArg (V m c main_arg2) (funext fun a => Fin.ext ?_)
  match a with
  | ⟨0, _⟩ => show win0_2.index t (0 : Fin 2) * 1 + 1 * (y 0).val = (y 0).val; rw [e0]; omega
  | ⟨1, _⟩ => show win0_2.index t (1 : Fin 2) * 32 + 1 * (y 1).val = (y 1).val; rw [e1]; omega

/-- Window 3's block is the whole fourth argument. -/
theorem w2_block (c : Dev nD) (t : Fin cfg0.N) :
    (iblk m c 3 t : Vec Ideal S32x256 .f32) = (m ((c : Thread nD τ).loc main_arg3) : S32x256.Idx → EReal) := by
  obtain ⟨-, -, -, -, -, -, e0, e1, -⟩ := index_facts t
  rw [← V_main_arg3 m c]
  unfold iblk
  funext y
  rw [View.read_apply]
  show V m c main_arg3 _ = V m c main_arg3 y
  refine congrArg (V m c main_arg3) (funext fun a => Fin.ext ?_)
  match a with
  | ⟨0, _⟩ => show win0_3.index t (0 : Fin 2) * 32 + 1 * (y 0).val = (y 0).val; rw [e0]; omega
  | ⟨1, _⟩ => show win0_3.index t (1 : Fin 2) * 256 + 1 * (y 1).val = (y 1).val; rw [e1]; omega

/-- Window 4's block is the whole fifth argument. -/
theorem b2_block (c : Dev nD) (t : Fin cfg0.N) :
    (iblk m c 4 t : Vec Ideal S1x256 .f32) = (m ((c : Thread nD τ).loc main_arg4) : S1x256.Idx → EReal) := by
  obtain ⟨-, -, -, -, -, -, -, -, e0, e1, -⟩ := index_facts t
  rw [← V_main_arg4 m c]
  unfold iblk
  funext y
  rw [View.read_apply]
  show V m c main_arg4 _ = V m c main_arg4 y
  refine congrArg (V m c main_arg4) (funext fun a => Fin.ext ?_)
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- Entry `(p, q)` of window 5's block at point `t` sits at row `512 t + p`, column `q` of the wide output. -/
theorem out_block_emb (t : Fin cfg0.N) (p : Fin 512) (q : Fin 256) :
    ((cfg0.win 5).blk t).view.emb (ix2 p q)
      = ix2 (⟨512 * t.val + p.val, by have := point_lt t; omega⟩ : Fin 131072) q := by
  obtain ⟨-, -, -, -, -, -, -, -, -, -, e0, e1⟩ := index_facts t
  refine funext fun a => Fin.ext ?_
  match a with
  | ⟨0, _⟩ => show win0_5.index t (0 : Fin 2) * 512 + 1 * p.val = 512 * t.val + p.val; rw [e0]; omega
  | ⟨1, _⟩ => show win0_5.index t (1 : Fin 2) * 256 + 1 * q.val = q.val; rw [e1]; omega

end Cert.ReferenceIdeal.ValueLeg

end
-- ==== Proof.ReferencePayload.lean ====
/-
  The body of the packed-row perceptron, read at one entry of its output block.

  One grid point holds a block `x0` of 512 packed rows (128 lanes each) and the four whole wide operands
  `x1 [128, 32]`, `x2 [1, 32]`, `x3 [32, 256]`, `x4 [1, 256]`. The body computes
  `max(x0 · x1 + x2, 0) · x3 + x4` with the one-row operands repeated over the 512 rows. At entry `(p, q)` of the
  result that is `Σ_j max(Σ_c x0[p, c] · x1[c, j] + x2[0, j], 0) · x3[j, q] + x4[0, q]`: both products are plain matrix
  products into a zero accumulator, the additions and the maximum are entrywise, the zero of the maximum is the real zero.
-/
import proofs.«124208_g2000401518493392_pallasbulk_970_6_alg».proof.Proof.Gen.ReferenceIdeal.Skeleton
import proofs.«124208_g2000401518493392_pallasbulk_970_6_alg».proof.Proof.LibDotCols
import Idealize.ShloMosaic.Lib.Pipeline.Value
import Idealize.ShloMosaic.Lib.ValueLayout
import Idealize.ShloMosaic.Lib.ValueIdx

noncomputable section

open scoped BigOperators

namespace Cert.ReferenceIdeal.ValueLeg

open Cert.ReferenceIdeal Cert.ReferenceIdeal.Gen Idealize.ShloMosaic Idealize.ShloMosaic.ValueIdx

/-- The two records of dimension numbers are the plain ones: contract axis 1 of the left operand with axis 0 of the right. -/
theorem dims_first : dot_S512x128_S128x32_S512x32_1_0_0_1_n_n = DotDims.plain 512 128 32 := rfl
theorem dims_second : dot_S512x32_S32x256_S512x256_1_0_0_1_n_n = DotDims.plain 512 32 256 := rfl

/-- Lane `j` of hidden row `p` of the block: the row of `x0` against column `j` of `x1`, plus the bias, cut at zero. -/
def hiddenAt (x0 : FVec Ideal S512x128 .f32) (x1 : FVec Ideal S128x32 .f32) (x2 : FVec Ideal S1x32 .f32) (p : Fin 512) (j : Fin 32) : EReal :=
  max ((∑ c : Fin 128, x0 (ix2 p c) * x1 (ix2 c j)) + x2 (ix2 (0 : Fin 1) j)) 0

/-- THE BODY'S RESULT AT AN ENTRY. -/
theorem pay_apply (x0 : Vec Ideal S512x128 .f32) (x1 : Vec Ideal S128x32 .f32) (x2 : Vec Ideal S1x32 .f32) (x3 : Vec Ideal S32x256 .f32) (x4 : Vec Ideal S1x256 .f32)
    (p : Fin 512) (q : Fin 256) :
    k0_pay1 (F := Ideal) x0 x1 x2 x3 x4 (ix2 p q)
      = (∑ j : Fin 32, hiddenAt x0 x1 x2 p j * x3 (ix2 j q)) + x4 (ix2 (0 : Fin 1) q) := by
  unfold k0_pay1
  rw [shapeCast_self]
  refine (addf_apply _ _ _).trans ?_
  refine congrArg₂ (· + ·) ?_ (broadcastTo_1b_ab_apply x4 _ p q)
  refine (Cert.Lib.DotCols.matmul_cols_apply _ dims_second none _ x3 p q).trans ?_
  refine Finset.sum_congr rfl fun j _ => ?_
  refine congrArg (· * x3 (ix2 j q)) ?_
  refine (maximumf_apply _ _ _).trans ?_
  unfold hiddenAt
  refine congrArg₂ max ?_ ?_
  · refine (addf_apply _ _ _).trans ?_
    exact congrArg₂ (· + ·) (Cert.Lib.DotCols.matmul_cols_apply _ dims_first none x0 x1 p j) (broadcastTo_1b_ab_apply x2 _ p j)
  · exact (broadcast_apply _ _).trans Ideal.ofBits_zero_f32

end Cert.ReferenceIdeal.ValueLeg

end
-- ==== Proof.ReferencePacked.lean ====
/-
  The body's result at an entry, when the block of packed rows is known through the unpacked rows.

  If row `p` of the block `x0` is packed row `r` of the input — lane `c` holding `z[4r + c / 32, c % 32]` — then entry
  `(p, q)` of the body's result over the whole wide operands is lane `q` of the output packed row `r` of the closed form:
  the inner sums agree term by term, and nothing else in the two expressions differs.
-/
import proofs.«124208_g2000401518493392_pallasbulk_970_6_alg».proof.Proof.ReferencePayload
import proofs.«124208_g2000401518493392_pallasbulk_970_6_alg».proof.Proof.Spec

noncomputable section

open scoped BigOperators

namespace Cert.ReferenceIdeal.ValueLeg

open Cert.ReferenceIdeal Cert.ReferenceIdeal.Gen Idealize.ShloMosaic Idealize.ShloMosaic.ValueIdx
open Cert.HyperMlp (SZ SW1 SB1 SW2 SB2 packedHidden packedWide)

/-- Row `p` of the block is packed row `r`: the hidden lanes agree. -/
theorem hiddenAt_packed (z : SZ.Idx → EReal) (w1 : SW1.Idx → EReal) (b1 : SB1.Idx → EReal)
    (x0 : FVec Ideal S512x128 .f32) (r : Fin 131072) (p : Fin 512)
    (h0 : ∀ c : Fin 128, x0 (ix2 p c)
      = z (ix2 (⟨4 * r.val + c.val / 32, by omega⟩ : Fin 524288) (⟨c.val % 32, Nat.mod_lt _ (by norm_num)⟩ : Fin 32)))
    (j : Fin 32) : hiddenAt x0 w1 b1 p j = packedHidden z w1 b1 r j := by
  unfold hiddenAt packedHidden
  refine congrArg (fun s => max (s + b1 (ix2 (0 : Fin 1) j)) 0) ?_
  exact Finset.sum_congr rfl fun c _ => congrArg (· * w1 (ix2 c j)) (h0 c)

/-- THE BODY'S RESULT AT AN ENTRY, through the unpacked rows. -/
theorem pay_packed (z : SZ.Idx → EReal) (w1 : SW1.Idx → EReal) (b1 : SB1.Idx → EReal) (w2 : SW2.Idx → EReal) (b2 : SB2.Idx → EReal)
    (x0 : Vec Ideal S512x128 .f32) (r : Fin 131072) (p : Fin 512) (q : Fin 256)
    (h0 : ∀ c : Fin 128, x0 (ix2 p c)
      = z (ix2 (⟨4 * r.val + c.val / 32, by omega⟩ : Fin 524288) (⟨c.val % 32, Nat.mod_lt _ (by norm_num)⟩ : Fin 32))) :
    k0_pay1 (F := Ideal) x0 w1 b1 w2 b2 (ix2 p q) = packedWide z w1 b1 w2 b2 r q := by
  refine (pay_apply x0 w1 b1 w2 b2 p q).trans ?_
  unfold packedWide
  refine congrArg (· + b2 (ix2 (0 : Fin 1) q)) ?_
  exact Finset.sum_congr rfl fun j _ => congrArg (· * w2 (ix2 j q)) (hiddenAt_packed z w1 b1 x0 r p h0 j)

end Cert.ReferenceIdeal.ValueLeg

end
-- ==== Proof.ReferenceBlocks.lean ====
/-
  From the blocks to the wide output array.

  Every grid point writes back one block of 512 rows of the `[131072, 256]` output, and that block is the corresponding block
  of ONE function of the argument arrays: entry `(r, q)` is lane `q` of the output packed row `r` of the closed form. The 256
  blocks tile the array (row `r` lies in the block of point `r / 512`), so after the region the array is that function.
-/
import proofs.«124208_g2000401518493392_pallasbulk_970_6_alg».proof.Proof.ReferenceWindows
import proofs.«124208_g2000401518493392_pallasbulk_970_6_alg».proof.Proof.ReferencePacked

noncomputable section

namespace Cert.ReferenceIdeal.ValueLeg

open Cert.ReferenceIdeal Cert.ReferenceIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The wide output as one function of the argument arrays as launched: lane `i 1` of output packed row `i 0`. -/
def wideOut (c : Dev nD) : S131072x256.Idx → EReal := fun i =>
  Cert.HyperMlp.packedWide (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

theorem zero_offsets : (![0, 0] : Fin 2 → Nat) = fun _ => 0 := funext fun a => by fin_cases a <;> rfl

/-- WHAT POINT `t` WRITES BACK is block `t` of the wide output. -/
theorem flushed_eq (c : Dev nD) (t : Fin cfg0.N) :
    (dats m 0 c).flushed 5 t = ((cfg0.win 5).blk t).view.read (Elt Ideal) (wideOut m c) := by
  show (cfg0.win 5).cut (grid0.coords t) ((dats m 0 c).after 5 t) = _
  rw [after0_5]
  unfold out0_5
  rw [View.canon_unit_zero zero_offsets]
  simp only [View.ld_unit_zero (S := S512x128) zero_offsets, View.ld_unit_zero (S := S128x32) zero_offsets,
    View.ld_unit_zero (S := S1x32) zero_offsets, View.ld_unit_zero (S := S32x256) zero_offsets,
    View.ld_unit_zero (S := S1x256) zero_offsets]
  rw [w1_block m c t, b1_block m c t, w2_block m c t, b2_block m c t]
  funext j
  show k0_pay1 (F := Ideal) (iblk m c 0 t) _ _ _ _ j = wideOut m c (((cfg0.win 5).blk t).view.emb j)
  obtain ⟨p, q, rfl⟩ : ∃ (p : Fin 512) (q : Fin 256), j = ix2 p q := ⟨j 0, j 1, eq_ix2 j⟩
  rw [out_block_emb t p q]
  exact pay_packed _ _ _ _ _ (iblk m c 0 t) (⟨512 * t.val + p.val, by have := point_lt t; omega⟩ : Fin 131072) p q
    (fun k => (rows_block m c t p k).trans (packed_apply m c _ k))

/-- An index of the array is in point `t`'s block iff each coordinate is in the block's range on its axis. -/
theorem mem_block (t : Fin cfg0.N) (i : S131072x256.Idx) :
    i ∈ ((cfg0.win 5).blk t).view.set
      ↔ ∀ a : Fin 2, win0_5.index t a * S512x256.size a ≤ (i a).val ∧ (i a).val < win0_5.index t a * S512x256.size a + S512x256.size a := by
  show i ∈ ((View.whole main_call0_v2).slice (win0_5.rect t)).set ↔ _
  rw [View.set_slice_whole, Rect.mem_set_unit]
  exact Iff.rfl

/-- Every index of the wide output is in the block of the point `row / 512`. -/
theorem covered (i : S131072x256.Idx) :
    ∃ t : Fin cfg0.N, (cfg0.win 5).flush t = true ∧ i ∈ ((cfg0.win 5).blk t).view.set := by
  have hi0 : (i 0).val < 131072 := (i 0).isLt
  have hi1 : (i 1).val < 256 := (i 1).isLt
  let t : Fin cfg0.N := ⟨(i 0).val / 512, lt_of_lt_of_eq (show (i 0).val / 512 < 256 by omega) N_0.symm⟩
  obtain ⟨-, -, -, -, -, -, -, -, -, -, e0, e1⟩ := index_facts t
  have ht : t.val = (i 0).val / 512 := rfl
  refine ⟨t, flush0_5 t, ?_⟩
  rw [mem_block]
  intro a
  match a with
  | ⟨0, _⟩ =>
    show win0_5.index t (0 : Fin 2) * 512 ≤ (i 0).val ∧ (i 0).val < win0_5.index t (0 : Fin 2) * 512 + 512
    rw [e0, ht]; omega
  | ⟨1, _⟩ =>
    show win0_5.index t (1 : Fin 2) * 256 ≤ (i 1).val ∧ (i 1).val < win0_5.index t (1 : Fin 2) * 256 + 256
    rw [e1]; omega

/-- THE WIDE OUTPUT ARRAY after the region. -/
theorem wide_final (c : Dev nD) : (dats m 0 c).arrAt 5 cfg0.N = wideOut m c :=
  (dats m 0 c).arrAt_eq_of_cover 5 (wideOut m c) (fun t _ => flushed_eq m c t) covered

end Cert.ReferenceIdeal.ValueLeg

end
-- ==== Proof.ReferenceValue.lean ====
/-
  The value of the packed-row program: its result array is the closed form `packedOut` of its own argument arrays.

  After the region the wide output `[131072, 256]` holds, at `(r, q)`, lane `q` of the output packed row `r`. The one host
  line after the region regroups it into rows of 64, which keeps the row-major position: entry `(n, o)` of the result is entry
  `(n / 4, 64 (n % 4) + o)` of the wide output — the closed form's own definition of output `o` of row `n`. The five argument
  arrays end as launched: the first is read only by the host lines, the others are staged by input windows and never written back.
-/
import proofs.«124208_g2000401518493392_pallasbulk_970_6_alg».proof.Proof.ReferenceBlocks
import Idealize.ShloMosaic.Lib.Pipeline.FrameSuffix

noncomputable section

namespace Cert.ReferenceIdeal.ValueLeg

open Cert.ReferenceIdeal Cert.ReferenceIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The result buffer after the host line that follows the region: the wide output regrouped into rows of 64. -/
theorem tail_eq (c : Dev nD) :
    (Pipeline.afterTail₀ cfgs (dats m) 0 (V0 m) [hostOps1] c main_v0 : S524288x64.Idx → EReal)
      = shapeCast S524288x64 (wideOut m c) Facts₀.shapeCasts_S131072x256_S524288x64 := by
  unfold Pipeline.afterTail₀
  show StableHlo.after hostOps1 _ (Proc.devRef .tc main_v0) = _
  after_results
  have e := (Pipeline.withArrays_arr spec0 launch0.win.arr_inj c (V0 m c) (fun w => (dats m 0 c).arrAt w cfg0.N) 5).trans (wide_final m c)
  exact (show _ = shapeCast S524288x64 (Pipeline.withArrays spec0 c (V0 m c) (fun w => (dats m 0 c).arrAt w cfg0.N)
      (Proc.devRef .tc (Pipeline.arrRef spec0 5))) Facts₀.shapeCasts_S131072x256_S524288x64 from rfl).trans
    (congrArg (fun f => shapeCast S524288x64 f Facts₀.shapeCasts_S131072x256_S524288x64) e)

/-- THE RESULT ARRAY is the closed form of the argument arrays as launched. -/
theorem result_eq (c : Dev nD) :
    (Pipeline.afterTail₀ cfgs (dats m) 0 (V0 m) [hostOps1] c main_v0 : S524288x64.Idx → EReal)
      = Cert.HyperMlp.packedOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [tail_eq]
  funext i
  obtain ⟨n, o, rfl⟩ : ∃ (n : Fin 524288) (o : Fin 64), i = ix2 n o := ⟨i 0, i 1, eq_ix2 i⟩
  exact unpackRows_apply (wideOut m c) _ n o

/-- THE RUN, READ: every weakly fair execution ends with the result array at the closed form and the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev nD,
        r.2.mem ((c.tc : Thread nD τ).loc main_v0)
          = Cert.HyperMlp.packedOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.ReferenceIdeal.ValueLeg

end
-- ==== Proof.PreDecodeWords.lean ====
/-
  Reading one-bit words back as facts about extended reals and coordinates.

  * An ordered-equal comparison of two extended reals gives the word 1 exactly when they are equal.
  * A select whose condition compares two coordinates below 4, each written as a 32-bit word, is the `if` on the
    coordinates being equal: below 2^32 the word of a natural number determines the number.
-/
import Idealize.ShloMosaic.PureOps.Ideal
import Idealize.ShloMosaic.Lib.ValueIdx
import Idealize.ShloMosaic.Lib.Affine
import Idealize.ShloMosaic.Lib.WordArith

noncomputable section

namespace Cert.HyperMlp.PreDecode

open Idealize.ShloMosaic Idealize.ShloMosaic.ValueIdx

/-- Where the ordered-equal comparison of two arrays of extended reals has the word 1, the two entries are equal. -/
theorem eq_of_oeq {s : Shape} (X Y : FVec Ideal s .f32) (i : s.Idx) (e : cmpf .oeq X Y i = 1#1) : X i = Y i := by
  have e' : Ideal.cmp .oeq (X i) (Y i) = 1#1 := e
  unfold Ideal.cmp at e'
  exact of_decide_eq_true ((WordArith.ofBool_eq_one_iff _).1 e')

/-- A select on "coordinate `a` equals coordinate `b`", both below 4 and compared as 32-bit words, is the `if` on `a = b`. -/
theorem select_coord_eq {α : Type} (a b : Nat) (ha : a < 4) (hb : b < 4) (A B : α) :
    Scalar.select (IntOp.cmpi .eq (BitVec.ofNat 32 a) (BitVec.ofNat 32 b)) A B = if a = b then A else B := by
  by_cases hab : a = b
  · subst hab
    rw [if_pos rfl, IntOp.cmpi_eq.2 rfl, select_one]
  · have hne : ¬ IntOp.cmpi .eq (BitVec.ofNat 32 a) (BitVec.ofNat 32 b) = 1#1 := by
      intro h
      have h' := congrArg BitVec.toNat (IntOp.cmpi_eq.1 h)
      rw [BitVec.toNat_ofNat, BitVec.toNat_ofNat] at h'
      omega
    rw [if_neg hab, eq_zero_of_ne_one hne, select_zero]

end Cert.HyperMlp.PreDecode

end
-- ==== Proof.PreDecodeW1.lean ====
/-
  The structure test of the first weight matrix, read back.

  The test reshapes `w [128, 32]` to `[4, 32, 4, 8]` — entry `(a, k, b, h)` is `w[32 a + k, 8 b + h]`, the same flat position —
  and compares it, entry by entry, with the array that holds the leading block `w[k, h]` where the two block coordinates
  agree (`a = b`) and zero elsewhere. All comparison words being 1, every entry of `w` is the leading block's entry on the
  block diagonal and zero off it.
-/
import proofs.«124208_g2000401518493392_pallasbulk_970_6_alg».proof.Pre_finite_inputs
import proofs.«124208_g2000401518493392_pallasbulk_970_6_alg».proof.Proof.PreDecodeWords
import Idealize.ShloMosaic.Lib.IdealHost
import Idealize.ShloMosaic.Lib.Pipeline.Value
import Idealize.ShloMosaic.Lib.ReduceAll
import Idealize.ShloMosaic.PureOps.Ideal.Laws

noncomputable section

namespace Cert.HyperMlp.PreDecode

open Idealize.ShloMosaic Idealize.ShloMosaic.ValueIdx Cert.Pre_finite_inputs

/-- The reshaped matrix at `(a, k, b, h)` is the matrix at row `32 a + k`, column `8 b + h`: both are flat position
    `1024 a + 32 k + 8 b + h`. -/
theorem w1_cast_apply (w : FVec Ideal S128x32 .f32) (hc : S128x32.ShapeCasts S4x32x4x8) (a b : Fin 4) (k : Fin 32) (h : Fin 8) :
    shapeCast S4x32x4x8 w hc (ix4 a k b h)
      = w (ix2 (⟨32 * a.val + k.val, by omega⟩ : Fin 128) (⟨8 * b.val + h.val, by omega⟩ : Fin 32)) := by
  refine shapeCast_apply w hc (ix4 a k b h) _ ?_
  rw [Shape.rowMajor_val_two, Shape.rowMajor_val_four]
  show (32 * a.val + k.val) * 32 + (8 * b.val + h.val) = ((a.val * 32 + k.val) * 4 + b.val) * 8 + h.val
  omega

/-- The comparison array at `(a, k, b, h)`: the leading block's entry `(k, h)` when `a = b`, zero otherwise. -/
theorem w1_diag_apply (w : FVec Ideal S128x32 .f32) (hs : S128x32.Slices ![0, 0] S32x8)
    (hb : S32x8.BroadcastsInDim S4x32x4x8 (![1, 3] : Fin 2 → Fin S4x32x4x8.rank))
    (hz : S_.BroadcastsInDim S4x32x4x8 (![] : Fin 0 → Fin S4x32x4x8.rank)) (a b : Fin 4) (k : Fin 32) (h : Fin 8) :
    select (cmpi .eq (iotaInDim S4x32x4x8 32 0) (iotaInDim S4x32x4x8 32 2))
        (broadcastInDim S4x32x4x8 ![1, 3] hb (extractStridedSlice S32x8 ![0, 0] w hs))
        (broadcastInDim S4x32x4x8 ![] hz (constant (F := Ideal) S_ .f32 0x00000000#32)) (ix4 a k b h)
      = if a.val = b.val then w (ix2 (⟨k.val, by omega⟩ : Fin 128) (⟨h.val, by omega⟩ : Fin 32)) else 0 := by
  rw [select_apply]
  show Scalar.select (IntOp.cmpi .eq (BitVec.ofNat 32 a.val) (BitVec.ofNat 32 b.val)) _ _ = _
  rw [select_coord_eq a.val b.val a.isLt b.isLt]
  by_cases hab : a.val = b.val
  · rw [if_pos hab, if_pos hab]
    refine (broadcastInDim_apply _ hb _ (ix4 a k b h) (ix2 k h) ?_).trans ?_
    · intro x
      match x with
      | ⟨0, _⟩ => rfl
      | ⟨1, _⟩ => rfl
    · refine extractStridedSlice_apply _ w hs (ix2 k h) _ ?_
      intro x
      match x with
      | ⟨0, _⟩ => show k.val = 0 + k.val; omega
      | ⟨1, _⟩ => show h.val = 0 + h.val; omega
  · rw [if_neg hab, if_neg hab, broadcastInDim_scalar_apply, constant_apply, Ideal.ofBits_zero_f32]

/-- The whole test: if the conjunction of all comparison words is 1, `w` is block-diagonal with the leading block repeated. -/
theorem w1_of_all [Facts] (w : FVec Ideal S128x32 .f32)
    (e : Host.reduce IntOp.andi
          (cmpf .oeq (shapeCast S4x32x4x8 w Facts.shapeCasts_S128x32_S4x32x4x8)
            (select (cmpi .eq (iotaInDim S4x32x4x8 32 0) (iotaInDim S4x32x4x8 32 2))
              (broadcastInDim S4x32x4x8 ![1, 3] Facts.bcast_S32x8_S4x32x4x8_1_3
                (extractStridedSlice S32x8 ![0, 0] w Facts.slices_S128x32_S32x8_0_0))
              (broadcastInDim S4x32x4x8 ![] Facts.bcast_S_S4x32x4x8 (constant (F := Ideal) S_ .f32 0x00000000#32))))
          (constantI S_ 1 1#1) Facts.reducesTo_S4x32x4x8_S_d0_1_2_3 Facts.h_S_ ix0 = 1#1)
    (a b : Fin 4) (k : Fin 32) (h : Fin 8) :
    w (ix2 (⟨32 * a.val + k.val, by omega⟩ : Fin 128) (⟨8 * b.val + h.val, by omega⟩ : Fin 32))
      = if a.val = b.val then w (ix2 (⟨k.val, by omega⟩ : Fin 128) (⟨h.val, by omega⟩ : Fin 32)) else 0 := by
  haveI : Subsingleton S_.Idx := ⟨fun x y => funext fun d => d.elim0⟩
  have hw := Host.reduce_andi_all _ _ _ _ _ e (ix4 a k b h)
  have he := eq_of_oeq _ _ _ hw
  rw [w1_cast_apply, w1_diag_apply] at he
  exact he

/-- The flat form: block row of row `c` is `c / 32`, block column of column `j` is `j / 8`. -/
theorem w1_flat (w : FVec Ideal S128x32 .f32)
    (H : ∀ (a b : Fin 4) (k : Fin 32) (h : Fin 8),
      w (ix2 (⟨32 * a.val + k.val, by omega⟩ : Fin 128) (⟨8 * b.val + h.val, by omega⟩ : Fin 32))
        = if a.val = b.val then w (ix2 (⟨k.val, by omega⟩ : Fin 128) (⟨h.val, by omega⟩ : Fin 32)) else 0)
    (c : Fin 128) (j : Fin 32) :
    w (ix2 c j) = if c.val / 32 = j.val / 8 then
      w (ix2 (⟨c.val % 32, by omega⟩ : Fin 128) (⟨j.val % 8, by omega⟩ : Fin 32)) else 0 := by
  have hc : (⟨32 * (c.val / 32) + c.val % 32, by omega⟩ : Fin 128) = c := Fin.ext (by show 32 * (c.val / 32) + c.val % 32 = c.val; omega)
  have hj : (⟨8 * (j.val / 8) + j.val % 8, by omega⟩ : Fin 32) = j := Fin.ext (by show 8 * (j.val / 8) + j.val % 8 = j.val; omega)
  have h := H ⟨c.val / 32, by omega⟩ ⟨j.val / 8, by omega⟩ ⟨c.val % 32, by omega⟩ ⟨j.val % 8, by omega⟩
  rw [hc, hj] at h
  exact h

end Cert.HyperMlp.PreDecode

end
-- ==== Proof.PreDecodeB1.lean ====
/-
  The structure test of the first bias row, read back.

  The test reshapes `b [1, 32]` to `[4, 8]` — entry `(a, h)` is `b[0, 8 a + h]` — and compares it, entry by entry, with
  the leading 8 entries `b[0, h]` repeated on every one of the four rows. All comparison words being 1, the row is
  four copies of its leading part.
-/
import proofs.«124208_g2000401518493392_pallasbulk_970_6_alg».proof.Pre_finite_inputs
import proofs.«124208_g2000401518493392_pallasbulk_970_6_alg».proof.Proof.PreDecodeWords
import Idealize.ShloMosaic.Lib.IdealHost
import Idealize.ShloMosaic.Lib.Pipeline.Value
import Idealize.ShloMosaic.Lib.ReduceAll
import Idealize.ShloMosaic.PureOps.Ideal.Laws

noncomputable section

namespace Cert.HyperMlp.PreDecode

open Idealize.ShloMosaic Idealize.ShloMosaic.ValueIdx Cert.Pre_finite_inputs

/-- The reshaped row at `(a, h)` is the row at column `8 a + h`: the same flat position. -/
theorem b1_cast_apply (v : FVec Ideal S1x32 .f32) (hc : S1x32.ShapeCasts S4x8) (a : Fin 4) (h : Fin 8) :
    shapeCast S4x8 v hc (ix2 a h) = v (ix2 (0 : Fin 1) (⟨8 * a.val + h.val, by omega⟩ : Fin 32)) := by
  refine shapeCast_apply v hc (ix2 a h) _ ?_
  rw [Shape.rowMajor_val_two, Shape.rowMajor_val_two]
  show 0 * 32 + (8 * a.val + h.val) = a.val * 8 + h.val
  omega

/-- The comparison array at `(a, h)`: entry `h` of the leading part, whatever the row `a`. -/
theorem b1_rep_apply (v : FVec Ideal S1x32 .f32) (hs : S1x32.Slices ![0, 0] S1x8) (hc : S1x8.ShapeCasts S8)
    (hb : S8.BroadcastsInDim S4x8 (![1] : Fin 1 → Fin S4x8.rank)) (a : Fin 4) (h : Fin 8) :
    broadcastInDim S4x8 ![1] hb (shapeCast S8 (extractStridedSlice S1x8 ![0, 0] v hs) hc) (ix2 a h)
      = v (ix2 (0 : Fin 1) (⟨h.val, by omega⟩ : Fin 32)) := by
  refine (broadcastInDim_apply _ hb _ (ix2 a h) (ix1 h) ?_).trans ?_
  · intro x
    match x with
    | ⟨0, _⟩ => rfl
  refine (shapeCast_apply _ hc (ix1 h) (ix2 (0 : Fin 1) h) ?_).trans ?_
  · rw [Shape.rowMajor_val_two, Shape.rowMajor_val_one]
    show 0 * 8 + h.val = h.val
    omega
  refine extractStridedSlice_apply _ v hs (ix2 (0 : Fin 1) h) _ ?_
  intro x
  match x with
  | ⟨0, _⟩ => rfl
  | ⟨1, _⟩ => show h.val = 0 + h.val; omega

/-- The whole test: if the conjunction of all comparison words is 1, the row is four copies of its leading part. -/
theorem b1_of_all [Facts] (v : FVec Ideal S1x32 .f32)
    (e : Host.reduce IntOp.andi
          (cmpf .oeq (shapeCast S4x8 v Facts.shapeCasts_S1x32_S4x8)
            (broadcastInDim S4x8 ![1] Facts.bcast_S8_S4x8_1
              (shapeCast S8 (extractStridedSlice S1x8 ![0, 0] v Facts.slices_S1x32_S1x8_0_0) Facts.shapeCasts_S1x8_S8)))
          (constantI S_ 1 1#1) Facts.reducesTo_S4x8_S_d0_1 Facts.h_S_ ix0 = 1#1)
    (a : Fin 4) (h : Fin 8) :
    v (ix2 (0 : Fin 1) (⟨8 * a.val + h.val, by omega⟩ : Fin 32)) = v (ix2 (0 : Fin 1) (⟨h.val, by omega⟩ : Fin 32)) := by
  haveI : Subsingleton S_.Idx := ⟨fun x y => funext fun d => d.elim0⟩
  have hw := Host.reduce_andi_all _ _ _ _ _ e (ix2 a h)
  have he := eq_of_oeq _ _ _ hw
  rw [b1_cast_apply, b1_rep_apply] at he
  exact he

/-- The flat form: column `j` is copy `j / 8` of entry `j % 8`. -/
theorem b1_flat (v : FVec Ideal S1x32 .f32)
    (H : ∀ (a : Fin 4) (h : Fin 8),
      v (ix2 (0 : Fin 1) (⟨8 * a.val + h.val, by omega⟩ : Fin 32)) = v (ix2 (0 : Fin 1) (⟨h.val, by omega⟩ : Fin 32)))
    (j : Fin 32) :
    v (ix2 (0 : Fin 1) j) = v (ix2 (0 : Fin 1) (⟨j.val % 8, by omega⟩ : Fin 32)) := by
  have hj : (⟨8 * (j.val / 8) + j.val % 8, by omega⟩ : Fin 32) = j :=
    Fin.ext (by show 8 * (j.val / 8) + j.val % 8 = j.val; omega)
  have h := H ⟨j.val / 8, by omega⟩ ⟨j.val % 8, by omega⟩
  rw [hj] at h
  exact h

end Cert.HyperMlp.PreDecode

end
-- ==== Proof.PreDecodeW2.lean ====
/-
  The structure test of the second weight matrix, read back.

  The test reshapes `w [32, 256]` to `[4, 8, 4, 64]` — entry `(a, k, b, h)` is `w[8 a + k, 64 b + h]`, the same flat position —
  and compares it, entry by entry, with the array that holds the leading block `w[k, h]` where the two block coordinates
  agree (`a = b`) and zero elsewhere. All comparison words being 1, every entry of `w` is the leading block's entry on the
  block diagonal and zero off it.
-/
import proofs.«124208_g2000401518493392_pallasbulk_970_6_alg».proof.Pre_finite_inputs
import proofs.«124208_g2000401518493392_pallasbulk_970_6_alg».proof.Proof.PreDecodeWords
import Idealize.ShloMosaic.Lib.IdealHost
import Idealize.ShloMosaic.Lib.Pipeline.Value
import Idealize.ShloMosaic.Lib.ReduceAll
import Idealize.ShloMosaic.PureOps.Ideal.Laws

noncomputable section

namespace Cert.HyperMlp.PreDecode

open Idealize.ShloMosaic Idealize.ShloMosaic.ValueIdx Cert.Pre_finite_inputs

/-- The reshaped matrix at `(a, k, b, h)` is the matrix at row `8 a + k`, column `64 b + h`: both are flat position
    `2048 a + 256 k + 64 b + h`. -/
theorem w2_cast_apply (w : FVec Ideal S32x256 .f32) (hc : S32x256.ShapeCasts S4x8x4x64) (a b : Fin 4) (k : Fin 8) (h : Fin 64) :
    shapeCast S4x8x4x64 w hc (ix4 a k b h)
      = w (ix2 (⟨8 * a.val + k.val, by omega⟩ : Fin 32) (⟨64 * b.val + h.val, by omega⟩ : Fin 256)) := by
  refine shapeCast_apply w hc (ix4 a k b h) _ ?_
  rw [Shape.rowMajor_val_two, Shape.rowMajor_val_four]
  show (8 * a.val + k.val) * 256 + (64 * b.val + h.val) = ((a.val * 8 + k.val) * 4 + b.val) * 64 + h.val
  omega

/-- The comparison array at `(a, k, b, h)`: the leading block's entry `(k, h)` when `a = b`, zero otherwise. -/
theorem w2_diag_apply (w : FVec Ideal S32x256 .f32) (hs : S32x256.Slices ![0, 0] S8x64)
    (hb : S8x64.BroadcastsInDim S4x8x4x64 (![1, 3] : Fin 2 → Fin S4x8x4x64.rank))
    (hz : S_.BroadcastsInDim S4x8x4x64 (![] : Fin 0 → Fin S4x8x4x64.rank)) (a b : Fin 4) (k : Fin 8) (h : Fin 64) :
    select (cmpi .eq (iotaInDim S4x8x4x64 32 0) (iotaInDim S4x8x4x64 32 2))
        (broadcastInDim S4x8x4x64 ![1, 3] hb (extractStridedSlice S8x64 ![0, 0] w hs))
        (broadcastInDim S4x8x4x64 ![] hz (constant (F := Ideal) S_ .f32 0x00000000#32)) (ix4 a k b h)
      = if a.val = b.val then w (ix2 (⟨k.val, by omega⟩ : Fin 32) (⟨h.val, by omega⟩ : Fin 256)) else 0 := by
  rw [select_apply]
  show Scalar.select (IntOp.cmpi .eq (BitVec.ofNat 32 a.val) (BitVec.ofNat 32 b.val)) _ _ = _
  rw [select_coord_eq a.val b.val a.isLt b.isLt]
  by_cases hab : a.val = b.val
  · rw [if_pos hab, if_pos hab]
    refine (broadcastInDim_apply _ hb _ (ix4 a k b h) (ix2 k h) ?_).trans ?_
    · intro x
      match x with
      | ⟨0, _⟩ => rfl
      | ⟨1, _⟩ => rfl
    · refine extractStridedSlice_apply _ w hs (ix2 k h) _ ?_
      intro x
      match x with
      | ⟨0, _⟩ => show k.val = 0 + k.val; omega
      | ⟨1, _⟩ => show h.val = 0 + h.val; omega
  · rw [if_neg hab, if_neg hab, broadcastInDim_scalar_apply, constant_apply, Ideal.ofBits_zero_f32]

/-- The whole test: if the conjunction of all comparison words is 1, `w` is block-diagonal with the leading block repeated. -/
theorem w2_of_all [Facts] (w : FVec Ideal S32x256 .f32)
    (e : Host.reduce IntOp.andi
          (cmpf .oeq (shapeCast S4x8x4x64 w Facts.shapeCasts_S32x256_S4x8x4x64)
            (select (cmpi .eq (iotaInDim S4x8x4x64 32 0) (iotaInDim S4x8x4x64 32 2))
              (broadcastInDim S4x8x4x64 ![1, 3] Facts.bcast_S8x64_S4x8x4x64_1_3
                (extractStridedSlice S8x64 ![0, 0] w Facts.slices_S32x256_S8x64_0_0))
              (broadcastInDim S4x8x4x64 ![] Facts.bcast_S_S4x8x4x64 (constant (F := Ideal) S_ .f32 0x00000000#32))))
          (constantI S_ 1 1#1) Facts.reducesTo_S4x8x4x64_S_d0_1_2_3 Facts.h_S_ ix0 = 1#1)
    (a b : Fin 4) (k : Fin 8) (h : Fin 64) :
    w (ix2 (⟨8 * a.val + k.val, by omega⟩ : Fin 32) (⟨64 * b.val + h.val, by omega⟩ : Fin 256))
      = if a.val = b.val then w (ix2 (⟨k.val, by omega⟩ : Fin 32) (⟨h.val, by omega⟩ : Fin 256)) else 0 := by
  haveI : Subsingleton S_.Idx := ⟨fun x y => funext fun d => d.elim0⟩
  have hw := Host.reduce_andi_all _ _ _ _ _ e (ix4 a k b h)
  have he := eq_of_oeq _ _ _ hw
  rw [w2_cast_apply, w2_diag_apply] at he
  exact he

/-- The flat form: block row of row `c` is `c / 8`, block column of column `j` is `j / 64`. -/
theorem w2_flat (w : FVec Ideal S32x256 .f32)
    (H : ∀ (a b : Fin 4) (k : Fin 8) (h : Fin 64),
      w (ix2 (⟨8 * a.val + k.val, by omega⟩ : Fin 32) (⟨64 * b.val + h.val, by omega⟩ : Fin 256))
        = if a.val = b.val then w (ix2 (⟨k.val, by omega⟩ : Fin 32) (⟨h.val, by omega⟩ : Fin 256)) else 0)
    (c : Fin 32) (j : Fin 256) :
    w (ix2 c j) = if c.val / 8 = j.val / 64 then
      w (ix2 (⟨c.val % 8, by omega⟩ : Fin 32) (⟨j.val % 64, by omega⟩ : Fin 256)) else 0 := by
  have hc : (⟨8 * (c.val / 8) + c.val % 8, by omega⟩ : Fin 32) = c :=
    Fin.ext (by show 8 * (c.val / 8) + c.val % 8 = c.val; omega)
  have hj : (⟨64 * (j.val / 64) + j.val % 64, by omega⟩ : Fin 256) = j :=
    Fin.ext (by show 64 * (j.val / 64) + j.val % 64 = j.val; omega)
  have h := H ⟨c.val / 8, by omega⟩ ⟨j.val / 64, by omega⟩ ⟨c.val % 8, by omega⟩ ⟨j.val % 64, by omega⟩
  rw [hc, hj] at h
  exact h

end Cert.HyperMlp.PreDecode

end
-- ==== Proof.PreDecodeB2.lean ====
/-
  The structure test of the second bias row, read back.

  The test reshapes `b [1, 256]` to `[4, 64]` — entry `(a, h)` is `b[0, 64 a + h]` — and compares it, entry by entry, with
  the leading 64 entries `b[0, h]` repeated on every one of the four rows. All comparison words being 1, the row is
  four copies of its leading part.
-/
import proofs.«124208_g2000401518493392_pallasbulk_970_6_alg».proof.Pre_finite_inputs
import proofs.«124208_g2000401518493392_pallasbulk_970_6_alg».proof.Proof.PreDecodeWords
import Idealize.ShloMosaic.Lib.IdealHost
import Idealize.ShloMosaic.Lib.Pipeline.Value
import Idealize.ShloMosaic.Lib.ReduceAll
import Idealize.ShloMosaic.PureOps.Ideal.Laws

noncomputable section

namespace Cert.HyperMlp.PreDecode

open Idealize.ShloMosaic Idealize.ShloMosaic.ValueIdx Cert.Pre_finite_inputs

/-- The reshaped row at `(a, h)` is the row at column `64 a + h`: the same flat position. -/
theorem b2_cast_apply (v : FVec Ideal S1x256 .f32) (hc : S1x256.ShapeCasts S4x64) (a : Fin 4) (h : Fin 64) :
    shapeCast S4x64 v hc (ix2 a h) = v (ix2 (0 : Fin 1) (⟨64 * a.val + h.val, by omega⟩ : Fin 256)) := by
  refine shapeCast_apply v hc (ix2 a h) _ ?_
  rw [Shape.rowMajor_val_two, Shape.rowMajor_val_two]
  show 0 * 256 + (64 * a.val + h.val) = a.val * 64 + h.val
  omega

/-- The comparison array at `(a, h)`: entry `h` of the leading part, whatever the row `a`. -/
theorem b2_rep_apply (v : FVec Ideal S1x256 .f32) (hs : S1x256.Slices ![0, 0] S1x64) (hc : S1x64.ShapeCasts S64)
    (hb : S64.BroadcastsInDim S4x64 (![1] : Fin 1 → Fin S4x64.rank)) (a : Fin 4) (h : Fin 64) :
    broadcastInDim S4x64 ![1] hb (shapeCast S64 (extractStridedSlice S1x64 ![0, 0] v hs) hc) (ix2 a h)
      = v (ix2 (0 : Fin 1) (⟨h.val, by omega⟩ : Fin 256)) := by
  refine (broadcastInDim_apply _ hb _ (ix2 a h) (ix1 h) ?_).trans ?_
  · intro x
    match x with
    | ⟨0, _⟩ => rfl
  refine (shapeCast_apply _ hc (ix1 h) (ix2 (0 : Fin 1) h) ?_).trans ?_
  · rw [Shape.rowMajor_val_two, Shape.rowMajor_val_one]
    show 0 * 64 + h.val = h.val
    omega
  refine extractStridedSlice_apply _ v hs (ix2 (0 : Fin 1) h) _ ?_
  intro x
  match x with
  | ⟨0, _⟩ => rfl
  | ⟨1, _⟩ => show h.val = 0 + h.val; omega

/-- The whole test: if the conjunction of all comparison words is 1, the row is four copies of its leading part. -/
theorem b2_of_all [Facts] (v : FVec Ideal S1x256 .f32)
    (e : Host.reduce IntOp.andi
          (cmpf .oeq (shapeCast S4x64 v Facts.shapeCasts_S1x256_S4x64)
            (broadcastInDim S4x64 ![1] Facts.bcast_S64_S4x64_1
              (shapeCast S64 (extractStridedSlice S1x64 ![0, 0] v Facts.slices_S1x256_S1x64_0_0) Facts.shapeCasts_S1x64_S64)))
          (constantI S_ 1 1#1) Facts.reducesTo_S4x64_S_d0_1 Facts.h_S_ ix0 = 1#1)
    (a : Fin 4) (h : Fin 64) :
    v (ix2 (0 : Fin 1) (⟨64 * a.val + h.val, by omega⟩ : Fin 256)) = v (ix2 (0 : Fin 1) (⟨h.val, by omega⟩ : Fin 256)) := by
  haveI : Subsingleton S_.Idx := ⟨fun x y => funext fun d => d.elim0⟩
  have hw := Host.reduce_andi_all _ _ _ _ _ e (ix2 a h)
  have he := eq_of_oeq _ _ _ hw
  rw [b2_cast_apply, b2_rep_apply] at he
  exact he

/-- The flat form: column `j` is copy `j / 64` of entry `j % 64`. -/
theorem b2_flat (v : FVec Ideal S1x256 .f32)
    (H : ∀ (a : Fin 4) (h : Fin 64),
      v (ix2 (0 : Fin 1) (⟨64 * a.val + h.val, by omega⟩ : Fin 256)) = v (ix2 (0 : Fin 1) (⟨h.val, by omega⟩ : Fin 256)))
    (j : Fin 256) :
    v (ix2 (0 : Fin 1) j) = v (ix2 (0 : Fin 1) (⟨j.val % 64, by omega⟩ : Fin 256)) := by
  have hj : (⟨64 * (j.val / 64) + j.val % 64, by omega⟩ : Fin 256) = j :=
    Fin.ext (by show 64 * (j.val / 64) + j.val % 64 = j.val; omega)
  have h := H ⟨j.val / 64, by omega⟩ ⟨j.val % 64, by omega⟩
  rw [hj] at h
  exact h

end Cert.HyperMlp.PreDecode

end
-- ==== Proof.PreDecode.lean ====
/-
  The certificate's precondition, decoded: the wide operands are the four-fold widening of their leading blocks.

  The printed precondition is one scalar word, the conjunction of nine tests: five finiteness tests, which are not used
  here, and four structure tests, one per wide operand. The conjunction being 1, each test is 1; each structure test is an
  "all entries" reduction of a comparison array, so every comparison word is 1, and reading the two compared arrays at an
  index gives the block-diagonal form of the two weight matrices and the four-copies form of the two bias rows.
-/
import proofs.«124208_g2000401518493392_pallasbulk_970_6_alg».proof.Pre_finite_inputs
import proofs.«124208_g2000401518493392_pallasbulk_970_6_alg».proof.Proof.Gen.Pre_finite_inputs
import proofs.«124208_g2000401518493392_pallasbulk_970_6_alg».proof.Proof.Spec
import proofs.«124208_g2000401518493392_pallasbulk_970_6_alg».proof.Proof.PreDecodeW1
import proofs.«124208_g2000401518493392_pallasbulk_970_6_alg».proof.Proof.PreDecodeB1
import proofs.«124208_g2000401518493392_pallasbulk_970_6_alg».proof.Proof.PreDecodeW2
import proofs.«124208_g2000401518493392_pallasbulk_970_6_alg».proof.Proof.PreDecodeB2

noncomputable section

namespace Cert.HyperMlp

open Idealize.ShloMosaic Idealize.ShloMosaic.ValueIdx Cert.Pre_finite_inputs

/-- Under the precondition the four wide operands are widened from their leading blocks. The scalar word is a left-nested
    conjunction whose last four members are the structure tests of `b2`, `w2`, `b1`, `w1`, from the outside in. -/
theorem widened_of_pre [Cert.Pre_finite_inputs.Facts]
    (z : FVec Ideal Cert.Pre_finite_inputs.S524288x32 .f32) (w1 : FVec Ideal Cert.Pre_finite_inputs.S128x32 .f32) (b1 : FVec Ideal Cert.Pre_finite_inputs.S1x32 .f32)
    (w2 : FVec Ideal Cert.Pre_finite_inputs.S32x256 .f32) (b2 : FVec Ideal Cert.Pre_finite_inputs.S1x256 .f32)
    (h : Cert.Pre_finite_inputs.fn (F := Ideal) z w1 b1 w2 b2 = fun _ => 1#1) : Cert.HyperMlp.Widened w1 b1 w2 b2 := by
  have h0 := congrFun h ValueIdx.ix0
  dsimp only [Cert.Pre_finite_inputs.fn, fn_part1, fn_part2, fn_part3] at h0
  obtain ⟨h1, hb2⟩ := IntOp.andi_eq_one.1 h0
  obtain ⟨h2, hw2⟩ := IntOp.andi_eq_one.1 h1
  obtain ⟨h3, hb1⟩ := IntOp.andi_eq_one.1 h2
  obtain ⟨_, hw1⟩ := IntOp.andi_eq_one.1 h3
  exact
    { w1 := PreDecode.w1_flat w1 (PreDecode.w1_of_all w1 hw1)
      b1 := PreDecode.b1_flat b1 (PreDecode.b1_of_all b1 hb1)
      w2 := PreDecode.w2_flat w2 (PreDecode.w2_of_all w2 hw2)
      b2 := PreDecode.b2_flat b2 (PreDecode.b2_of_all b2 hb2) }

end Cert.HyperMlp

end
-- ==== Proof.lean ====
/-
  A row-wise two-layer perceptron, `out[n] = max(z[n] · W1 + b1, 0) · W2 + b2` with 32 features, 8 hidden units and 64 outputs,
  computed two ways from the same five arrays — the rows `z` and four WIDE operands that hold four copies of the small weights.

  One program transposes `z`, cuts the leading blocks `W1 = w1[:32, :8]`, `b1[0, :8]`, `W2 = w2[:8, :64]`, `b2[0, :64]` out of the wide
  operands and applies them to every column of `zᵀ`, 65536 columns per grid point; its output is transposed back. The other
  packs four consecutive rows of `z` into one row of 128 lanes, multiplies by the whole wide operands `[128, 32]` and `[32, 256]`,
  512 packed rows per grid point, and unpacks the `[131072, 256]` result into `[524288, 64]`.

  As functions of arbitrary wide operands the two differ: the first never reads outside the leading blocks. They agree exactly
  when the wide operands are what the second program is written for — block-diagonal weights with four equal diagonal blocks and
  zeros elsewhere, biases four copies side by side — and that is what the precondition states beside finiteness. Under it, in the
  packed product each lane meets only the block of its own slot: the other terms have an exact zero factor, and a product with
  zero is zero for every extended real, so those terms drop out of the finite sums with no appeal to finiteness. What is left is
  the row-wise sum with its factors in the other order.

  The pieces: each program's result array as a closed form of its argument arrays (`KernelIdeal.ValueLeg.run`,
  `ReferenceIdeal.ValueLeg.run`, read off the frame runs: the body's one store at every grid point, the blocks tiling the array,
  the host operations before and after the region read at an index); the precondition read as the structure of the wide operands
  (`widened_of_pre`); and the equality of the two closed forms under that structure (`packedOut_eq_leadOut`). The frame claims are
  the frame runs themselves, and the idealization rewrote nothing, so its claim is trivial.
-/
import proofs.«124208_g2000401518493392_pallasbulk_970_6_alg».proof.Defs
import proofs.«124208_g2000401518493392_pallasbulk_970_6_alg».proof.Proof.Gen.Kernel
import proofs.«124208_g2000401518493392_pallasbulk_970_6_alg».proof.Proof.Gen.Kernel.Skeleton
import proofs.«124208_g2000401518493392_pallasbulk_970_6_alg».proof.Proof.Gen.Kernel.Launch
import proofs.«124208_g2000401518493392_pallasbulk_970_6_alg».proof.Proof.Gen.Kernel.Points
import proofs.«124208_g2000401518493392_pallasbulk_970_6_alg».proof.Proof.Gen.Kernel.Frame
import proofs.«124208_g2000401518493392_pallasbulk_970_6_alg».proof.Proof.Gen.KernelIdeal
import proofs.«124208_g2000401518493392_pallasbulk_970_6_alg».proof.Proof.Gen.KernelIdeal.Skeleton
import proofs.«124208_g2000401518493392_pallasbulk_970_6_alg».proof.Proof.Gen.KernelIdeal.Launch
import proofs.«124208_g2000401518493392_pallasbulk_970_6_alg».proof.Proof.Gen.KernelIdeal.Points
import proofs.«124208_g2000401518493392_pallasbulk_970_6_alg».proof.Proof.Gen.KernelIdeal.Frame
import proofs.«124208_g2000401518493392_pallasbulk_970_6_alg».proof.Proof.Gen.ReferenceIdeal
import proofs.«124208_g2000401518493392_pallasbulk_970_6_alg».proof.Proof.Gen.ReferenceIdeal.Skeleton
import proofs.«124208_g2000401518493392_pallasbulk_970_6_alg».proof.Proof.Gen.ReferenceIdeal.Launch
import proofs.«124208_g2000401518493392_pallasbulk_970_6_alg».proof.Proof.Gen.ReferenceIdeal.Points
import proofs.«124208_g2000401518493392_pallasbulk_970_6_alg».proof.Proof.Gen.ReferenceIdeal.Frame
import proofs.«124208_g2000401518493392_pallasbulk_970_6_alg».proof.Proof.Gen.Pre_finite_inputs
import proofs.«124208_g2000401518493392_pallasbulk_970_6_alg».proof.Proof.Bridge
import proofs.«124208_g2000401518493392_pallasbulk_970_6_alg».proof.Proof.KernelValue
import proofs.«124208_g2000401518493392_pallasbulk_970_6_alg».proof.Proof.ReferenceValue
import proofs.«124208_g2000401518493392_pallasbulk_970_6_alg».proof.Proof.PreDecode
import Idealize.ShloMosaic.Adequacy
import Idealize.ShloMosaic.Init

noncomputable section

namespace Cert.Proof

open Idealize.ShloMosaic Idealize.SL.Sem

/-- Both idealized programs run, from memories that agree on the arguments, to ONE result array: the row-wise closed form of the
    kernel's own arguments. The kernel's run ends there; the reference's run ends at the packed closed form of ITS arguments, which
    are the kernel's, and the precondition makes the packed form the row-wise one. -/
theorem algebraic : Cert.algebraic_KernelIdeal_ReferenceIdeal := by
  intro m ρ m' ρ' hpre hagree
  refine ⟨fun c => Cert.HyperMlp.leadOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.ValueLeg.run m ρ, ?_⟩
  refine (θ_run Cert.ReferenceIdeal.defs _ _).mono (fun r h c => ⟨(h c).1.trans ?_, (h c).2⟩) (Cert.ReferenceIdeal.ValueLeg.run m' ρ')
  rw [(hagree c).1, (hagree c).2.1, (hagree c).2.2.1, (hagree c).2.2.2.1, (hagree c).2.2.2.2]
  exact Cert.HyperMlp.packedOut_eq_leadOut (Cert.HyperMlp.widened_of_pre _ _ _ _ _ (hpre c))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
